-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part6 {F : FTy → Type} [FloatOps F] (main_arg21 : FVec F S256x256 .f32) (main_arg22 : FVec F S256x256 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256x256 .f32 := Host.absf main_arg22
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  main_v113

def fn_part5 {F : FTy → Type} [FloatOps F] (main_arg18 : FVec F S256x256 .f32) (main_arg19 : FVec F S256x256 .f32) (main_arg20 : FVec F S256x256 .f32) (main_arg21 : FVec F S256x256 .f32) (main_arg22 : FVec F S256x256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x256 .f32) (main_arg12 : FVec F S256 .f32) (main_arg13 : FVec F S256x256 .f32) (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S131072x256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_v13 : IVec S_ 1) (main_v16 : IVec S131072x256 1) : IVec S_ 1 :=
  let main_c_5 : IVec S_ 1 := constantI S_ 1 1#1
  let main_v17 : IVec S_ 1 := (fun x v => Host.reduce IntOp.andi x v reducesTo_S131072x256_S_d0_1 h_S_) main_v16 main_c_5
  let main_v18 : IVec S_ 1 := andi main_v13 main_v17
  let main_v19 : FVec F S131072x256 .f32 := Host.absf main_arg4
  let main_cst_6 : FVec F S_ .f32 := constant S_ .f32 0x7F800000#32
  let main_v20 : FVec F S131072x256 .f32 := broadcastInDim S131072x256 ![] bcast_S_S131072x256 main_cst_6
  let main_v21 : IVec S131072x256 1 := cmpf .olt main_v19 main_v20
  let main_c_7 : IVec S_ 1 := constantI S_ 1 1#1
  let main_v22 : IVec S_ 1 := (fun x v => Host.reduce IntOp.andi x v reducesTo_S131072x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S131072x256 .f32) (main_arg1 : FVec F S131072x256 .f32) (main_arg2 : FVec F S131072x256 .f32) (main_arg3 : FVec F S131072x256 .f32) (main_arg4 : FVec F S131072x256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S131072x256 .f32 := Host.absf main_arg3
  let main_cst_4 : FVec F S_ .f32 := constant S_ .f32 0x7F800000#32
  let main_v15 : FVec F S131072x256 .f32 := broadcastInDim S131072x256 ![] bcast_S_S131072x256 main_cst_4
  let main_v16 : IVec S131072x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S131072x256 : Shape := ⟨2, ![131072, 256]⟩
abbrev S256x256 : Shape := ⟨2, ![256, 256]⟩
abbrev S256 : Shape := ⟨1, ![256]⟩
abbrev S1x256 : Shape := ⟨2, ![1, 256]⟩
abbrev S2048x256 : Shape := ⟨2, ![2048, 256]⟩

abbrev nBuf : Space → Nat
  | .hbm => 57
  | .vmem => 32
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072x256, .f32⟩
  | .hbm, ⟨4, _⟩ => ⟨S131072x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .bf16⟩
  | .hbm, ⟨25, _⟩ => ⟨S256x256, .f32⟩
  | .hbm, ⟨26, _⟩ => ⟨S256x256, .bf16⟩
  | .hbm, ⟨27, _⟩ => ⟨S256x256, .f32⟩
  | .hbm, ⟨28, _⟩ => ⟨S256x256, .bf16⟩
  | .hbm, ⟨29, _⟩ => ⟨S256x256, .f32⟩
  | .hbm, ⟨30, _⟩ => ⟨S256x256, .bf16⟩
  | .hbm, ⟨31, _⟩ => ⟨S256x256, .f32⟩
  | .hbm, ⟨32, _⟩ => ⟨S256x256, .bf16⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .bf16⟩
  | .hbm, ⟨37, _⟩ => ⟨S256x256, .f32⟩
  | .hbm, ⟨38, _⟩ => ⟨S256x256, .bf16⟩
  | .hbm, ⟨39, _⟩ => ⟨S256x256, .f32⟩
  | .hbm, ⟨40, _⟩ => ⟨S256x256, .bf16⟩
  | .hbm, ⟨41, _⟩ => ⟨S256x256, .f32⟩
  | .hbm, ⟨42, _⟩ => ⟨S256x256, .bf16⟩
  | .hbm, ⟨43, _⟩ => ⟨S256x256, .f32⟩
  | .hbm, ⟨44, _⟩ => ⟨S256x256, .bf16⟩
  | .hbm, ⟨45, _⟩ => ⟨S256x256, .f32⟩
  | .hbm, ⟨46, _⟩ => ⟨S256x256, .bf16⟩
  | .hbm, ⟨47, _⟩ => ⟨S256x256, .f32⟩
  | .hbm, ⟨48, _⟩ => ⟨S256x256, .bf16⟩
  | .hbm, ⟨49, _⟩ => ⟨S256x256, .f32⟩
  | .hbm, ⟨50, _⟩ => ⟨S256x256, .bf16⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S131072x256, .f32⟩
  | .hbm, ⟨56, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S256x256, .bf16⟩
  | .local _ .vmem, ⟨27, _⟩ => ⟨S256x256, .bf16⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | .local _ .vmem, ⟨31, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem23_1 : DmaSem sig := 29
abbrev cc0_sem24_0 : DmaSem sig := 30
abbrev cc0_sem24_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2048x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2048x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S131072x256.size a
  hwx0_2 : ∀ i : grid0.Coords, EltTy.bits .f32 = 32 ∨ (Rect.block (s := S131072x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S131072x256.size a
  hwx0_3 : ∀ i : grid0.Coords, EltTy.bits .f32 = 32 ∨ (Rect.block (s := S131072x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S131072x256.size a
  hwx0_4 : ∀ i : grid0.Coords, EltTy.bits .f32 = 32 ∨ (Rect.block (s := S131072x256) S2048x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S256x256.size a
  hwx0_18 : ∀ i : grid0.Coords, EltTy.bits .bf16 = 32 ∨ (Rect.block (s := S256x256) S256x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .bf16 = 32 ∨ (Rect.block (s := S256x256) S256x256.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x256.size a ≤ S256x256.size a
  hwx0_20 : ∀ i : grid0.Coords, EltTy.bits .bf16 = 32 ∨ (Rect.block (s := S256x256) S256x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .bf16 = 32 ∨ (Rect.block (s := S256x256) S256x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x256.size a ≤ S256x256.size a
  hwx0_22 : ∀ i : grid0.Coords, EltTy.bits .bf16 = 32 ∨ (Rect.block (s := S256x256) S256x256.size (cc0_transform_22 i) (hinb0_22 i)).WholeWords (EltTy.packing .bf16)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x256.size a ≤ S131072x256.size a
  hwx0_23 : ∀ i : grid0.Coords, EltTy.bits .f32 = 32 ∨ (Rect.block (s := S131072x256) S2048x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2048x256.size a ≤ S131072x256.size a
  hwx0_24 : ∀ i : grid0.Coords, EltTy.bits .f32 = 32 ∨ (Rect.block (s := S131072x256) S2048x256.size (cc0_transform_24 i) (hinb0_24 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v19) S256x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v21) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v23) S256x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v25) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v27) S256x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v32_0) S2048x256.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v32_1) S2048x256.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S1280x256 : Shape := ⟨2, ![1280, 256]⟩
abbrev S256x1024 : Shape := ⟨2, ![256, 1024]⟩
abbrev S131072x1024 : Shape := ⟨2, ![131072, 1024]⟩
abbrev S1x1024 : Shape := ⟨2, ![1, 1024]⟩
abbrev S256x1280 : Shape := ⟨2, ![256, 1280]⟩
abbrev S131072x1280 : Shape := ⟨2, ![131072, 1280]⟩
abbrev S_ : Shape := ⟨0, ![]⟩

abbrev nBuf : Space → Nat
  | .hbm => 100
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072x256, .f32⟩
  | .hbm, ⟨4, _⟩ => ⟨S131072x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S1024x256, .f32⟩
  | .hbm, ⟨24, _⟩ => ⟨S1024, .f32⟩
  | .hbm, ⟨25, _⟩ => ⟨S1280x256, .f32⟩
  | .hbm, ⟨26, _⟩ => ⟨S1280x256, .f32⟩
  | .hbm, ⟨27, _⟩ => ⟨S256x1024, .f32⟩
  | .hbm, ⟨28, _⟩ => ⟨S131072x1024, .f32⟩
  | .hbm, ⟨29, _⟩ => ⟨S1x1024, .f32⟩
  | .hbm, ⟨30, _⟩ => ⟨S131072x1024, .f32⟩
  | .hbm, ⟨31, _⟩ => ⟨S131072x1024, .f32⟩
  | .hbm, ⟨32, _⟩ => ⟨S256x1280, .f32⟩
  | .hbm, ⟨33, _⟩ => ⟨S131072x1280, .f32⟩
  | .hbm, ⟨34, _⟩ => ⟨S256x1280, .f32⟩
  | .hbm, ⟨35, _⟩ => ⟨S131072x1280, .f32⟩
  | .hbm, ⟨36, _⟩ => ⟨S131072x256, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S131072x256, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S131072x256, .f32⟩
  | .hbm, ⟨50, _⟩ => ⟨S131072x256, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S131072x256, .f32⟩
  | .hbm, ⟨55, _⟩ => ⟨S131072x256, .f32⟩
  | .hbm, ⟨56, _⟩ => ⟨S131072x256, .f32⟩
  | .hbm, ⟨57, _⟩ => ⟨S_, .f32⟩
  | .hbm, ⟨58, _⟩ => ⟨S131072x256, .f32⟩
  | .hbm, ⟨59, _⟩ => ⟨S131072x256, .f32⟩
  | .hbm, ⟨60, _⟩ => ⟨S_, .f32⟩
  | .hbm, ⟨61, _⟩ => ⟨S131072x256, .f32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S131072x256, .f32⟩
  | .hbm, ⟨66, _⟩ => ⟨S131072x256, .f32⟩
  | .hbm, ⟨67, _⟩ => ⟨S_, .f32⟩
  | .hbm, ⟨68, _⟩ => ⟨S131072x256, .f32⟩
  | .hbm, ⟨69, _⟩ => ⟨S131072x256, .f32⟩
  | .hbm, ⟨70, _⟩ => ⟨S_, .f32⟩
  | .hbm, ⟨71, _⟩ => ⟨S131072x256, .f32⟩
  | .hbm, ⟨72, _⟩ => ⟨S131072x256, .f32⟩
  | .hbm, ⟨73, _⟩ => ⟨S131072x256, .f32⟩
  | .hbm, ⟨74, _⟩ => ⟨S131072x256, .f32⟩
  | .hbm, ⟨75, _⟩ => ⟨S131072x256, .f32⟩
  | .hbm, ⟨76, _⟩ => ⟨S131072x256, .f32⟩
  | .hbm, ⟨77, _⟩ => ⟨S_, .f32⟩
  | .hbm, ⟨78, _⟩ => ⟨S131072x256, .f32⟩
  | .hbm, ⟨79, _⟩ => ⟨S131072x256, .f32⟩
  | .hbm, ⟨80, _⟩ => ⟨S_, .f32⟩
  | .hbm, ⟨81, _⟩ => ⟨S131072x256, .f32⟩
  | .hbm, ⟨82, _⟩ => ⟨S131072x256, .f32⟩
  | .hbm, ⟨83, _⟩ => ⟨S131072x256, .f32⟩
  | .hbm, ⟨84, _⟩ => ⟨S131072x256, .f32⟩
  | .hbm, ⟨85, _⟩ => ⟨S131072x256, .f32⟩
  | .hbm, ⟨86, _⟩ => ⟨S131072x256, .f32⟩
  | .hbm, ⟨87, _⟩ => ⟨S131072x256, .f32⟩
  | .hbm, ⟨88, _⟩ => ⟨S131072x256, .f32⟩
  | .hbm, ⟨89, _⟩ => ⟨S131072x256, .f32⟩
  | .hbm, ⟨90, _⟩ => ⟨S131072x256, .f32⟩
  | .hbm, ⟨91, _⟩ => ⟨S131072x256, .f32⟩
  | .hbm, ⟨92, _⟩ => ⟨S_, .f32⟩
  | .hbm, ⟨93, _⟩ => ⟨S131072x256, .f32⟩
  | .hbm, ⟨94, _⟩ => ⟨S131072x256, .f32⟩
  | .hbm, ⟨95, _⟩ => ⟨S_, .f32⟩
  | .hbm, ⟨96, _⟩ => ⟨S131072x256, .f32⟩
  | .hbm, ⟨97, _⟩ => ⟨S131072x256, .f32⟩
  | .hbm, ⟨98, _⟩ => ⟨S131072x256, .f32⟩
  | .hbm, ⟨99, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_cst_0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_v43 : Ref sig .tc := ⟨.hbm, 69, rfl⟩
abbrev main_cst_2 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_3 : Ref sig .tc := ⟨.hbm, 77, rfl⟩
abbrev main_v50 : Ref sig .tc := ⟨.hbm, 78, rfl⟩
abbrev main_v51 : Ref sig .tc := ⟨.hbm, 79, rfl⟩
abbrev main_cst_4 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_5 : Ref sig .tc := ⟨.hbm, 92, rfl⟩
abbrev main_v63 : Ref sig .tc := ⟨.hbm, 93, rfl⟩
abbrev main_v64 : Ref sig .tc := ⟨.hbm, 94, rfl⟩
abbrev main_cst_6 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  concatenates_S256x256_S256x256_S256x256_S256x256_S1024x256_d0 : Shape.Concatenates [S256x256, S256x256, S256x256, S256x256] S1024x256 0
  concatenates_S256_S256_S256_S256_S1024_d0 : Shape.Concatenates [S256, S256, S256, S256] S1024 0
  concatenates_S256x256_S256x256_S256x256_S256x256_S256x256_S1280x256_d0 : Shape.Concatenates [S256x256, S256x256, S256x256, S256x256, S256x256] S1280x256 0
  transposes_S1024x256_S256x1024_1_0 : S1024x256.Transposes [1, 0] S256x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  transposes_S1280x256_S256x1280_1_0 : S1280x256.Transposes [1, 0] S256x1280
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  slices_S131072x1280_S131072x256_0_0 : S131072x1280.Slices ![0, 0] S131072x256
  slices_S131072x1280_S131072x256_0_256 : S131072x1280.Slices ![0, 256] S131072x256
  slices_S131072x1280_S131072x256_0_512 : S131072x1280.Slices ![0, 512] S131072x256
  slices_S131072x1280_S131072x256_0_768 : S131072x1280.Slices ![0, 768] S131072x256
  slices_S131072x1280_S131072x256_0_1024 : S131072x1280.Slices ![0, 1024] S131072x256
  bcast_S_S131072x256 : S_.BroadcastsInDim S131072x256 (![] : Fin 0 → Fin S131072x256.rank)
  dot_S131072x256_S256x1024_S131072x1024_1_0_0_1_n_n_wf : DotDims.WF S131072x256 S256x1024 S131072x1024 [1] [0] [0] [1] [] []
  dot_S131072x256_S256x1280_S131072x1280_1_0_0_1_n_n_wf : DotDims.WF S131072x256 S256x1280 S131072x1280 [1] [0] [0] [1] [] []

variable [Facts₀]

def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x256_S256x1280_S131072x1280_1_0_0_1_n_n : DotDims S131072x256 S256x1280 S131072x1280 where
  lhsContracting := [1]
  rhsContracting := [0]
  lhsNonContracting := [0]
  rhsNonContracting := [1]
  lhsBatch := []
  rhsBatch := []
  wf := dot_S131072x256_S256x1280_S131072x1280_1_0_0_1_n_n_wf

class Facts : Prop extends Facts₀ where

variable [Facts]
-- ==== Proof.CellSpec.lean ====
/-
  The binary tree-LSTM cell, one entry at a time.

  Every node n has an input row x(n,·), two children's hidden rows lh(n,·), rh(n,·) and two children's memory rows
  lc(n,·), rc(n,·), each of 256 channels.  A gate's pre-activation at node n and channel j is

      ((Σ_k x(n,k)·W(j,k) + b(j)) + Σ_k lh(n,k)·Ul(j,k)) + Σ_k rh(n,k)·Ur(j,k),

  the input row against row j of the gate's input weight, plus the gate's bias, plus each child's hidden row against row
  j of that child's weight for the gate, added in this grouping.  With u the tanh of the update gate's pre-activation and
  i, lf, rf, o the logistic functions of the input, left-forget, right-forget and output gates' (the two forget gates
  share the input weight and bias W_f, b_f), the cell's new memory and hidden state at (n, j) are

      c = (i·u + lf·lc(n,j)) + rf·rc(n,j),        h = o·tanh c.

  On the extended reals the logistic function is 1 / (1 + e^(−z)) at every z, the two infinities included, so a
  program that spells it as negate, exponential, add one, divide computes the same function as one that names it; no
  finiteness of the inputs is used anywhere below.
-/
import Idealize.ShloMosaic.PureOps.Ideal.Laws
import Idealize.ShloMosaic.Lib.ValueIdx
import Idealize.ShloMosaic.Lib.IdealHost

noncomputable section

namespace Cert.TreeCell

open Idealize.ShloMosaic Idealize.ShloMosaic.ValueIdx

/-- The node arrays: 131072 nodes by 256 channels. -/
abbrev Nodes : Shape := ⟨2, ![131072, 256]⟩
/-- A gate weight: 256 output channels by 256 input channels. -/
abbrev Weight : Shape := ⟨2, ![256, 256]⟩
/-- A gate bias: one entry per output channel. -/
abbrev Bias : Shape := ⟨1, ![256]⟩

/-- A gate's pre-activation from the node's three rows (input, left hidden, right hidden), the output channel's three
    weight rows and its bias: three dot products and the bias, in the grouping ((x·w + b) + l·wl) + r·wr. -/
def preact (xr lr rr wx wl wr : Fin 256 → EReal) (b : EReal) : EReal :=
  ((∑ k : Fin 256, xr k * wx k) + b + ∑ k : Fin 256, lr k * wl k) + ∑ k : Fin 256, rr k * wr k

/-- The new memory at one entry from the four gates' pre-activations (update, input, left forget, right forget) and the
    two children's memories there: (σ(pi)·tanh(pu) + σ(pl)·lc) + σ(pr)·rc. -/
def memAt (pu pi pl pr lc rc : EReal) : EReal :=
  Ideal.logistic pi * Ideal.tanh pu + Ideal.logistic pl * lc + Ideal.logistic pr * rc

/-- The new hidden state at one entry from the output gate's pre-activation and the new memory: σ(po)·tanh(c). -/
def hidAt (po c : EReal) : EReal := Ideal.logistic po * Ideal.tanh c

/-- A gate's pre-activation at node n, channel j, from whole arrays: rows n of the three node arrays against rows j of
    the gate's three weights, and entry j of its bias. -/
def gate (x lh rh : Nodes.Idx → EReal) (W : Weight.Idx → EReal) (b : Bias.Idx → EReal) (Ul Ur : Weight.Idx → EReal)
    (n : Fin 131072) (j : Fin 256) : EReal :=
  preact (fun k => x (ix2 n k)) (fun k => lh (ix2 n k)) (fun k => rh (ix2 n k))
    (fun k => W (ix2 j k)) (fun k => Ul (ix2 j k)) (fun k => Ur (ix2 j k)) (b (ix1 j))

/-- THE NEW MEMORY as one function of the 23 argument arrays, in the programs' argument order:
    a0 … a4 = x, lc, lh, rc, rh;  (a5, a6) = (W_c, b_c), (a7, a8) = (W_o, b_o), (a9, a10) = (W_f, b_f),
    (a11, a12) = (W_i, b_i);  a13, a14 = the input gate's left and right child weights;  a15, a16 = the left forget
    gate's;  a17, a18 = the right forget gate's;  a19, a20 = the update gate's;  a21, a22 = the output gate's. -/
def newC (a0 a1 a2 a3 a4 : Nodes.Idx → EReal) (a5 : Weight.Idx → EReal) (a6 : Bias.Idx → EReal) (a7 : Weight.Idx → EReal)
    (a8 : Bias.Idx → EReal) (a9 : Weight.Idx → EReal) (a10 : Bias.Idx → EReal) (a11 : Weight.Idx → EReal) (a12 : Bias.Idx → EReal)
    (a13 a14 a15 a16 a17 a18 a19 a20 : Weight.Idx → EReal) : Nodes.Idx → EReal := fun i =>
  memAt (gate a0 a2 a4 a5 a6 a19 a20 (i 0) (i 1)) (gate a0 a2 a4 a11 a12 a13 a14 (i 0) (i 1))
    (gate a0 a2 a4 a9 a10 a15 a16 (i 0) (i 1)) (gate a0 a2 a4 a9 a10 a17 a18 (i 0) (i 1)) (a1 i) (a3 i)

/-- THE NEW HIDDEN STATE as one function of the 23 argument arrays (the order of `newC`): the output gate against the
    tanh of the new memory. -/
def newH (a0 a1 a2 a3 a4 : Nodes.Idx → EReal) (a5 : Weight.Idx → EReal) (a6 : Bias.Idx → EReal) (a7 : Weight.Idx → EReal)
    (a8 : Bias.Idx → EReal) (a9 : Weight.Idx → EReal) (a10 : Bias.Idx → EReal) (a11 : Weight.Idx → EReal) (a12 : Bias.Idx → EReal)
    (a13 a14 a15 a16 a17 a18 a19 a20 a21 a22 : Weight.Idx → EReal) : Nodes.Idx → EReal := fun i =>
  hidAt (gate a0 a2 a4 a7 a8 a21 a22 (i 0) (i 1))
    (newC a0 a1 a2 a3 a4 a5 a6 a7 a8 a9 a10 a11 a12 a13 a14 a15 a16 a17 a18 a19 a20 i)

/-- The logistic function spelt out — one over one plus the exponential of the negation, the ones being the f32 word of
    1.0 — is the logistic function, at every extended real. -/
theorem spelt_logistic (z : EReal) :
    Ideal.div (Ideal.ofBits .f32 0x3F800000#32) (Ideal.ofBits .f32 0x3F800000#32 + Ideal.exp (-z)) = Ideal.logistic z := by
  rw [Ideal.ofBits_one_f32]; rfl

/-- A vector's tanh at an index is the tanh of its entry. -/
theorem tanh_apply {s : Shape} {φ : FTy} (a : FVec Ideal s φ) (i : s.Idx) : tanh a i = Ideal.tanh (a i) := rfl

/-- A vector's logistic function at an index is the logistic function of its entry. -/
theorem logistic_apply {s : Shape} {φ : FTy} (a : FVec Ideal s φ) (i : s.Idx) : logistic a i = Ideal.logistic (a i) := rfl

end Cert.TreeCell

end
-- ==== Proof.StackedRows.lean ====
/-
  Row blocks of a stack.  When n arrays with 256 rows each are laid one after another along the first axis, row
  256·g + r of the stack is row r of array g, and nothing else moves: for matrices the column is kept, for vectors
  there is no other coordinate.  This is how a program that fuses several gates' weights into one tall weight (and
  their biases into one long bias) still reads, at any entry, the single gate's weight it was built from.
-/
import Idealize.ShloMosaic.Lib.Pipeline.Value
import Idealize.ShloMosaic.Lib.ValueIdx
import proofs.«167922_j65017214926868_2_alg».proof.Proof.CellSpec

noncomputable section

namespace Cert.TreeCell

open Idealize.ShloMosaic Idealize.ShloMosaic.ValueIdx

variable {α : Type}

/-- Four [256,256] matrices stacked along the rows, read at row 256·g + r and column q: matrix g at (r, q). -/
theorem stack4_apply (y0 y1 y2 y3 : Weight.Idx → α)
    (h : Shape.Concatenates (([⟨Weight, y0⟩, ⟨Weight, y1⟩, ⟨Weight, y2⟩, ⟨Weight, y3⟩] : List ((s : Shape) × (s.Idx → α))).map (·.1)) (⟨2, ![1024, 256]⟩ : Shape) 0)
    (j : (⟨2, ![1024, 256]⟩ : Shape).Idx) (g : Nat) (hg : g < 4) (r q : Fin 256)
    (hj0 : (j 0).val = 256 * g + r.val) (hj1 : (j 1).val = q.val) :
    concatenate (⟨2, ![1024, 256]⟩ : Shape) 0 [⟨Weight, y0⟩, ⟨Weight, y1⟩, ⟨Weight, y2⟩, ⟨Weight, y3⟩] h j = ![y0, y1, y2, y3] ⟨g, hg⟩ (ix2 r q) := by
  have hi : ∀ b : Fin Weight.rank, b.cast (rfl : Weight.rank = (⟨2, ![1024, 256]⟩ : Shape).rank) ≠ 0 →
      ((ix2 r q : Weight.Idx) b).val = (j (b.cast rfl)).val := fun b hb => by
    match b with
    | ⟨0, _⟩ => exact absurd rfl hb
    | ⟨1, _⟩ => exact hj1.symm
  interval_cases g
  · exact concatenate_apply_piece 0 _ h j 0 (by simp) Weight y0 rfl rfl 0 (by rfl) (ix2 r q) hi (by show 0 + r.val = (j 0).val; omega)
  · exact concatenate_apply_piece 0 _ h j 1 (by simp) Weight y1 rfl rfl 256 (by rfl) (ix2 r q) hi (by show 256 + r.val = (j 0).val; omega)
  · exact concatenate_apply_piece 0 _ h j 2 (by simp) Weight y2 rfl rfl 512 (by rfl) (ix2 r q) hi (by show 512 + r.val = (j 0).val; omega)
  · exact concatenate_apply_piece 0 _ h j 3 (by simp) Weight y3 rfl rfl 768 (by rfl) (ix2 r q) hi (by show 768 + r.val = (j 0).val; omega)

/-- Five [256,256] matrices stacked along the rows, read at row 256·g + r and column q: matrix g at (r, q). -/
theorem stack5_apply (y0 y1 y2 y3 y4 : Weight.Idx → α)
    (h : Shape.Concatenates (([⟨Weight, y0⟩, ⟨Weight, y1⟩, ⟨Weight, y2⟩, ⟨Weight, y3⟩, ⟨Weight, y4⟩] : List ((s : Shape) × (s.Idx → α))).map (·.1)) (⟨2, ![1280, 256]⟩ : Shape) 0)
    (j : (⟨2, ![1280, 256]⟩ : Shape).Idx) (g : Nat) (hg : g < 5) (r q : Fin 256)
    (hj0 : (j 0).val = 256 * g + r.val) (hj1 : (j 1).val = q.val) :
    concatenate (⟨2, ![1280, 256]⟩ : Shape) 0 [⟨Weight, y0⟩, ⟨Weight, y1⟩, ⟨Weight, y2⟩, ⟨Weight, y3⟩, ⟨Weight, y4⟩] h j = ![y0, y1, y2, y3, y4] ⟨g, hg⟩ (ix2 r q) := by
  have hi : ∀ b : Fin Weight.rank, b.cast (rfl : Weight.rank = (⟨2, ![1280, 256]⟩ : Shape).rank) ≠ 0 →
      ((ix2 r q : Weight.Idx) b).val = (j (b.cast rfl)).val := fun b hb => by
    match b with
    | ⟨0, _⟩ => exact absurd rfl hb
    | ⟨1, _⟩ => exact hj1.symm
  interval_cases g
  · exact concatenate_apply_piece 0 _ h j 0 (by simp) Weight y0 rfl rfl 0 (by rfl) (ix2 r q) hi (by show 0 + r.val = (j 0).val; omega)
  · exact concatenate_apply_piece 0 _ h j 1 (by simp) Weight y1 rfl rfl 256 (by rfl) (ix2 r q) hi (by show 256 + r.val = (j 0).val; omega)
  · exact concatenate_apply_piece 0 _ h j 2 (by simp) Weight y2 rfl rfl 512 (by rfl) (ix2 r q) hi (by show 512 + r.val = (j 0).val; omega)
  · exact concatenate_apply_piece 0 _ h j 3 (by simp) Weight y3 rfl rfl 768 (by rfl) (ix2 r q) hi (by show 768 + r.val = (j 0).val; omega)
  · exact concatenate_apply_piece 0 _ h j 4 (by simp) Weight y4 rfl rfl 1024 (by rfl) (ix2 r q) hi (by show 1024 + r.val = (j 0).val; omega)

/-- Four [256] vectors laid end to end, read at position 256·g + r: vector g at r. -/
theorem stack4_vec_apply (y0 y1 y2 y3 : Bias.Idx → α)
    (h : Shape.Concatenates (([⟨Bias, y0⟩, ⟨Bias, y1⟩, ⟨Bias, y2⟩, ⟨Bias, y3⟩] : List ((s : Shape) × (s.Idx → α))).map (·.1)) (⟨1, ![1024]⟩ : Shape) 0)
    (j : (⟨1, ![1024]⟩ : Shape).Idx) (g : Nat) (hg : g < 4) (r : Fin 256)
    (hj0 : (j 0).val = 256 * g + r.val) :
    concatenate (⟨1, ![1024]⟩ : Shape) 0 [⟨Bias, y0⟩, ⟨Bias, y1⟩, ⟨Bias, y2⟩, ⟨Bias, y3⟩] h j = ![y0, y1, y2, y3] ⟨g, hg⟩ (ix1 r) := by
  have hi : ∀ b : Fin Bias.rank, b.cast (rfl : Bias.rank = (⟨1, ![1024]⟩ : Shape).rank) ≠ 0 →
      ((ix1 r : Bias.Idx) b).val = (j (b.cast rfl)).val := fun b hb => by
    match b with
    | ⟨0, _⟩ => exact absurd rfl hb
  interval_cases g
  · exact concatenate_apply_piece 0 _ h j 0 (by simp) Bias y0 rfl rfl 0 (by rfl) (ix1 r) hi (by show 0 + r.val = (j 0).val; omega)
  · exact concatenate_apply_piece 0 _ h j 1 (by simp) Bias y1 rfl rfl 256 (by rfl) (ix1 r) hi (by show 256 + r.val = (j 0).val; omega)
  · exact concatenate_apply_piece 0 _ h j 2 (by simp) Bias y2 rfl rfl 512 (by rfl) (ix1 r) hi (by show 512 + r.val = (j 0).val; omega)
  · exact concatenate_apply_piece 0 _ h j 3 (by simp) Bias y3 rfl rfl 768 (by rfl) (ix1 r) hi (by show 768 + r.val = (j 0).val; omega)

end Cert.TreeCell

end
-- ==== Proof.RefCell.lean ====
/-
  The reference computes the tree-LSTM cell through fused weights: the four gates' input weights stacked into one
  [1024, 256] matrix (and their biases into one [1024] vector), each child's five gate weights stacked into one
  [1280, 256] matrix; three products of the node arrays with the transposed stacks; and 256-column slices of the
  products, one per gate.  Entry (n, 256·g + j) of a product with a transposed stack is the node's row against row
  256·g + j of the stack, which is row j of gate g's own weight: so each slice, at (n, j), is the plain dot product the
  cell's definition has for that gate (plus, for the input projection, the gate's bias at j).  The gates are then added,
  squashed and combined exactly as `newC` and `newH` say, the logistic function spelt as one over one plus the
  exponential of the negation.
-/
import proofs.«167922_j65017214926868_2_alg».proof.Proof.Gen.ReferenceIdeal.Read
import proofs.«167922_j65017214926868_2_alg».proof.Proof.CellSpec
import proofs.«167922_j65017214926868_2_alg».proof.Proof.StackedRows
import Idealize.ShloMosaic.Lib.ValueIdx

noncomputable section

namespace Cert.TreeCell.Ref

open Idealize.ShloMosaic Idealize.ShloMosaic.ValueIdx Cert.ReferenceIdeal Cert.ReferenceIdeal.Read Cert.TreeCell

variable (x0 x1 x2 x3 x4 : (⟨S131072x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
  (x11 : (⟨S256x256, .f32⟩ : BufTy).Contents (Elt Ideal)) (x12 : (⟨S256, .f32⟩ : BufTy).Contents (Elt Ideal)) (x13 x14 x15 x16 x17 x18 x19 x20 x21 x22 : (⟨S256x256, .f32⟩ : BufTy).Contents (Elt Ideal))

/-- The fused input projection plus the fused bias at (n, 256·g + j): the node's input row against row j of gate g's
    input weight, plus gate g's bias at j. -/
theorem fusedX_at (x0 : (⟨S131072x256, .f32⟩ : BufTy).Contents (Elt Ideal)) (x5 x7 x9 x11 : (⟨S256x256, .f32⟩ : BufTy).Contents (Elt Ideal)) (x6 x8 x10 x12 : (⟨S256, .f32⟩ : BufTy).Contents (Elt Ideal)) (i' : S131072x1024.Idx) (n : Fin 131072)
    (g : Nat) (hg : g < 4) (j : Fin 256) (h0 : (i' 0).val = n.val) (h1 : (i' 1).val = 256 * g + j.val) :
    val_main_v8 (F := Ideal) x0 x5 x6 x7 x8 x9 x10 x11 x12 i'
      = (∑ k : Fin 256, x0 (ix2 n k) * ![x5, x11, x9, x7] ⟨g, hg⟩ (ix2 j k)) + ![x6, x12, x10, x8] ⟨g, hg⟩ (ix1 j) := by
  rw [val_main_v8_apply, Ideal.addf_def, val_main_v5_apply, val_main_v7_apply, val_main_v6_apply]
  unfold val_main_v1
  rw [stack4_vec_apply x6 x12 x10 x8 _ (idx_main_v6 (idx_main_v7 i')) g hg j h1]
  refine congrArg (· + _) (Finset.sum_congr rfl fun k _ => ?_)
  rw [val_main_v4_apply]
  unfold val_main_v0
  rw [stack4_apply x5 x11 x9 x7 _ (idx_main_v4 (ridx_main_v5 i' k)) g hg j k h1 rfl]
  refine congrArg (x0 · * _) (funext fun a => Fin.ext ?_)
  match a with
  | ⟨0, _⟩ => exact h0
  | ⟨1, _⟩ => rfl

/-- The fused left-child projection at (n, 256·g + j): the node's left hidden row against row j of gate g's left weight. -/
theorem fusedL_at (x2 : (⟨S131072x256, .f32⟩ : BufTy).Contents (Elt Ideal)) (x13 x15 x17 x19 x21 : (⟨S256x256, .f32⟩ : BufTy).Contents (Elt Ideal)) (i' : S131072x1280.Idx) (n : Fin 131072)
    (g : Nat) (hg : g < 5) (j : Fin 256) (h0 : (i' 0).val = n.val) (h1 : (i' 1).val = 256 * g + j.val) :
    val_main_v10 (F := Ideal) x2 x13 x15 x17 x19 x21 i' = ∑ k : Fin 256, x2 (ix2 n k) * ![x19, x13, x15, x17, x21] ⟨g, hg⟩ (ix2 j k) := by
  rw [val_main_v10_apply]
  refine Finset.sum_congr rfl fun k _ => ?_
  rw [val_main_v9_apply]
  unfold val_main_v2
  rw [stack5_apply x19 x13 x15 x17 x21 _ (idx_main_v9 (ridx_main_v10 i' k)) g hg j k h1 rfl]
  refine congrArg (x2 · * _) (funext fun a => Fin.ext ?_)
  match a with
  | ⟨0, _⟩ => exact h0
  | ⟨1, _⟩ => rfl

/-- The fused right-child projection at (n, 256·g + j): the node's right hidden row against row j of gate g's right weight. -/
theorem fusedR_at (x4 : (⟨S131072x256, .f32⟩ : BufTy).Contents (Elt Ideal)) (x14 x16 x18 x20 x22 : (⟨S256x256, .f32⟩ : BufTy).Contents (Elt Ideal)) (i' : S131072x1280.Idx) (n : Fin 131072)
    (g : Nat) (hg : g < 5) (j : Fin 256) (h0 : (i' 0).val = n.val) (h1 : (i' 1).val = 256 * g + j.val) :
    val_main_v12 (F := Ideal) x4 x14 x16 x18 x20 x22 i' = ∑ k : Fin 256, x4 (ix2 n k) * ![x20, x14, x16, x18, x22] ⟨g, hg⟩ (ix2 j k) := by
  rw [val_main_v12_apply]
  refine Finset.sum_congr rfl fun k _ => ?_
  rw [val_main_v11_apply]
  unfold val_main_v3
  rw [stack5_apply x20 x14 x16 x18 x22 _ (idx_main_v11 (ridx_main_v12 i' k)) g hg j k h1 rfl]
  refine congrArg (x4 · * _) (funext fun a => Fin.ext ?_)
  match a with
  | ⟨0, _⟩ => exact h0
  | ⟨1, _⟩ => rfl

/-- Slice 0 of the fused input projection: the input row against row (i 1) of its gate's input weight, plus that gate's bias. -/
theorem v13_at (i : S131072x256.Idx) : val_main_v13 (F := Ideal) x0 x5 x6 x7 x8 x9 x10 x11 x12 i
    = (∑ k : Fin 256, x0 (ix2 (i 0) k) * x5 (ix2 (i 1) k)) + x6 (ix1 (i 1)) := by
  rw [val_main_v13_apply]
  exact fusedX_at x0 x5 x7 x9 x11 x6 x8 x10 x12 (idx_main_v13 i) (i 0) 0 (by decide) (i 1) rfl (by show (i 1).val = 256 * 0 + (i 1).val; omega)

/-- Slice 1 of the fused input projection: the input row against row (i 1) of its gate's input weight, plus that gate's bias. -/
theorem v14_at (i : S131072x256.Idx) : val_main_v14 (F := Ideal) x0 x5 x6 x7 x8 x9 x10 x11 x12 i
    = (∑ k : Fin 256, x0 (ix2 (i 0) k) * x11 (ix2 (i 1) k)) + x12 (ix1 (i 1)) := by
  rw [val_main_v14_apply]
  exact fusedX_at x0 x5 x7 x9 x11 x6 x8 x10 x12 (idx_main_v14 i) (i 0) 1 (by decide) (i 1) rfl (by show 256 + (i 1).val = 256 * 1 + (i 1).val; omega)

/-- Slice 2 of the fused input projection: the input row against row (i 1) of its gate's input weight, plus that gate's bias. -/
theorem v15_at (i : S131072x256.Idx) : val_main_v15 (F := Ideal) x0 x5 x6 x7 x8 x9 x10 x11 x12 i
    = (∑ k : Fin 256, x0 (ix2 (i 0) k) * x9 (ix2 (i 1) k)) + x10 (ix1 (i 1)) := by
  rw [val_main_v15_apply]
  exact fusedX_at x0 x5 x7 x9 x11 x6 x8 x10 x12 (idx_main_v15 i) (i 0) 2 (by decide) (i 1) rfl (by show 512 + (i 1).val = 256 * 2 + (i 1).val; omega)

/-- Slice 3 of the fused input projection: the input row against row (i 1) of its gate's input weight, plus that gate's bias. -/
theorem v16_at (i : S131072x256.Idx) : val_main_v16 (F := Ideal) x0 x5 x6 x7 x8 x9 x10 x11 x12 i
    = (∑ k : Fin 256, x0 (ix2 (i 0) k) * x7 (ix2 (i 1) k)) + x8 (ix1 (i 1)) := by
  rw [val_main_v16_apply]
  exact fusedX_at x0 x5 x7 x9 x11 x6 x8 x10 x12 (idx_main_v16 i) (i 0) 3 (by decide) (i 1) rfl (by show 768 + (i 1).val = 256 * 3 + (i 1).val; omega)

/-- Slice 0 of the fused left-child projection: the left hidden row against row (i 1) of its gate's left weight. -/
theorem v17_at (i : S131072x256.Idx) : val_main_v17 (F := Ideal) x2 x13 x15 x17 x19 x21 i
    = ∑ k : Fin 256, x2 (ix2 (i 0) k) * x19 (ix2 (i 1) k) := by
  rw [val_main_v17_apply]
  exact fusedL_at x2 x13 x15 x17 x19 x21 (idx_main_v17 i) (i 0) 0 (by decide) (i 1) rfl (by show (i 1).val = 256 * 0 + (i 1).val; omega)

/-- Slice 1 of the fused left-child projection: the left hidden row against row (i 1) of its gate's left weight. -/
theorem v18_at (i : S131072x256.Idx) : val_main_v18 (F := Ideal) x2 x13 x15 x17 x19 x21 i
    = ∑ k : Fin 256, x2 (ix2 (i 0) k) * x13 (ix2 (i 1) k) := by
  rw [val_main_v18_apply]
  exact fusedL_at x2 x13 x15 x17 x19 x21 (idx_main_v18 i) (i 0) 1 (by decide) (i 1) rfl (by show 256 + (i 1).val = 256 * 1 + (i 1).val; omega)

/-- Slice 2 of the fused left-child projection: the left hidden row against row (i 1) of its gate's left weight. -/
theorem v19_at (i : S131072x256.Idx) : val_main_v19 (F := Ideal) x2 x13 x15 x17 x19 x21 i
    = ∑ k : Fin 256, x2 (ix2 (i 0) k) * x15 (ix2 (i 1) k) := by
  rw [val_main_v19_apply]
  exact fusedL_at x2 x13 x15 x17 x19 x21 (idx_main_v19 i) (i 0) 2 (by decide) (i 1) rfl (by show 512 + (i 1).val = 256 * 2 + (i 1).val; omega)

/-- Slice 3 of the fused left-child projection: the left hidden row against row (i 1) of its gate's left weight. -/
theorem v20_at (i : S131072x256.Idx) : val_main_v20 (F := Ideal) x2 x13 x15 x17 x19 x21 i
    = ∑ k : Fin 256, x2 (ix2 (i 0) k) * x17 (ix2 (i 1) k) := by
  rw [val_main_v20_apply]
  exact fusedL_at x2 x13 x15 x17 x19 x21 (idx_main_v20 i) (i 0) 3 (by decide) (i 1) rfl (by show 768 + (i 1).val = 256 * 3 + (i 1).val; omega)

/-- Slice 4 of the fused left-child projection: the left hidden row against row (i 1) of its gate's left weight. -/
theorem v21_at (i : S131072x256.Idx) : val_main_v21 (F := Ideal) x2 x13 x15 x17 x19 x21 i
    = ∑ k : Fin 256, x2 (ix2 (i 0) k) * x21 (ix2 (i 1) k) := by
  rw [val_main_v21_apply]
  exact fusedL_at x2 x13 x15 x17 x19 x21 (idx_main_v21 i) (i 0) 4 (by decide) (i 1) rfl (by show 1024 + (i 1).val = 256 * 4 + (i 1).val; omega)

/-- Slice 0 of the fused right-child projection: the right hidden row against row (i 1) of its gate's right weight. -/
theorem v22_at (i : S131072x256.Idx) : val_main_v22 (F := Ideal) x4 x14 x16 x18 x20 x22 i
    = ∑ k : Fin 256, x4 (ix2 (i 0) k) * x20 (ix2 (i 1) k) := by
  rw [val_main_v22_apply]
  exact fusedR_at x4 x14 x16 x18 x20 x22 (idx_main_v22 i) (i 0) 0 (by decide) (i 1) rfl (by show (i 1).val = 256 * 0 + (i 1).val; omega)

/-- Slice 1 of the fused right-child projection: the right hidden row against row (i 1) of its gate's right weight. -/
theorem v23_at (i : S131072x256.Idx) : val_main_v23 (F := Ideal) x4 x14 x16 x18 x20 x22 i
    = ∑ k : Fin 256, x4 (ix2 (i 0) k) * x14 (ix2 (i 1) k) := by
  rw [val_main_v23_apply]
  exact fusedR_at x4 x14 x16 x18 x20 x22 (idx_main_v23 i) (i 0) 1 (by decide) (i 1) rfl (by show 256 + (i 1).val = 256 * 1 + (i 1).val; omega)

/-- Slice 2 of the fused right-child projection: the right hidden row against row (i 1) of its gate's right weight. -/
theorem v24_at (i : S131072x256.Idx) : val_main_v24 (F := Ideal) x4 x14 x16 x18 x20 x22 i
    = ∑ k : Fin 256, x4 (ix2 (i 0) k) * x16 (ix2 (i 1) k) := by
  rw [val_main_v24_apply]
  exact fusedR_at x4 x14 x16 x18 x20 x22 (idx_main_v24 i) (i 0) 2 (by decide) (i 1) rfl (by show 512 + (i 1).val = 256 * 2 + (i 1).val; omega)

/-- Slice 3 of the fused right-child projection: the right hidden row against row (i 1) of its gate's right weight. -/
theorem v25_at (i : S131072x256.Idx) : val_main_v25 (F := Ideal) x4 x14 x16 x18 x20 x22 i
    = ∑ k : Fin 256, x4 (ix2 (i 0) k) * x18 (ix2 (i 1) k) := by
  rw [val_main_v25_apply]
  exact fusedR_at x4 x14 x16 x18 x20 x22 (idx_main_v25 i) (i 0) 3 (by decide) (i 1) rfl (by show 768 + (i 1).val = 256 * 3 + (i 1).val; omega)

/-- Slice 4 of the fused right-child projection: the right hidden row against row (i 1) of its gate's right weight. -/
theorem v26_at (i : S131072x256.Idx) : val_main_v26 (F := Ideal) x4 x14 x16 x18 x20 x22 i
    = ∑ k : Fin 256, x4 (ix2 (i 0) k) * x22 (ix2 (i 1) k) := by
  rw [val_main_v26_apply]
  exact fusedR_at x4 x14 x16 x18 x20 x22 (idx_main_v26 i) (i 0) 4 (by decide) (i 1) rfl (by show 1024 + (i 1).val = 256 * 4 + (i 1).val; omega)

/-- The update gate's pre-activation in the reference: its three slices added in the programs' grouping. -/
theorem update_pre (i : S131072x256.Idx) : val_main_v28 (F := Ideal) x0 x2 x4 x5 x6 x7 x8 x9 x10 x11 x12 x13 x14 x15 x16 x17 x18 x19 x20 x21 x22 i = gate x0 x2 x4 x5 x6 x19 x20 (i 0) (i 1) := by
  rw [val_main_v28_apply, val_main_v27_apply, v13_at, v17_at, v22_at]
  rfl

/-- The input gate's pre-activation in the reference: its three slices added in the programs' grouping. -/
theorem input_pre (i : S131072x256.Idx) : val_main_v31 (F := Ideal) x0 x2 x4 x5 x6 x7 x8 x9 x10 x11 x12 x13 x14 x15 x16 x17 x18 x19 x20 x21 x22 i = gate x0 x2 x4 x11 x12 x13 x14 (i 0) (i 1) := by
  rw [val_main_v31_apply, val_main_v30_apply, v14_at, v18_at, v23_at]
  rfl

/-- The forgetL gate's pre-activation in the reference: its three slices added in the programs' grouping. -/
theorem forgetL_pre (i : S131072x256.Idx) : val_main_v39 (F := Ideal) x0 x2 x4 x5 x6 x7 x8 x9 x10 x11 x12 x13 x14 x15 x16 x17 x18 x19 x20 x21 x22 i = gate x0 x2 x4 x9 x10 x15 x16 (i 0) (i 1) := by
  rw [val_main_v39_apply, val_main_v38_apply, v15_at, v19_at, v24_at]
  rfl

/-- The forgetR gate's pre-activation in the reference: its three slices added in the programs' grouping. -/
theorem forgetR_pre (i : S131072x256.Idx) : val_main_v47 (F := Ideal) x0 x2 x4 x5 x6 x7 x8 x9 x10 x11 x12 x13 x14 x15 x16 x17 x18 x19 x20 x21 x22 i = gate x0 x2 x4 x9 x10 x17 x18 (i 0) (i 1) := by
  rw [val_main_v47_apply, val_main_v46_apply, v15_at, v20_at, v25_at]
  rfl

/-- The output gate's pre-activation in the reference: its three slices added in the programs' grouping. -/
theorem output_pre (i : S131072x256.Idx) : val_main_v60 (F := Ideal) x0 x2 x4 x5 x6 x7 x8 x9 x10 x11 x12 x13 x14 x15 x16 x17 x18 x19 x20 x21 x22 i = gate x0 x2 x4 x7 x8 x21 x22 (i 0) (i 1) := by
  rw [val_main_v60_apply, val_main_v59_apply, v16_at, v21_at, v26_at]
  rfl

/-- The input gate in the reference — one over one plus the exponential of the negated pre-activation — is its logistic function. -/
theorem input_sig (i : S131072x256.Idx) : val_main_v37 (F := Ideal) x0 x2 x4 x5 x6 x7 x8 x9 x10 x11 x12 x13 x14 x15 x16 x17 x18 x19 x20 x21 x22 i = Ideal.logistic (val_main_v31 (F := Ideal) x0 x2 x4 x5 x6 x7 x8 x9 x10 x11 x12 x13 x14 x15 x16 x17 x18 x19 x20 x21 x22 i) := by
  rw [val_main_v37_apply, val_main_v36_apply, val_main_cst_0_apply, val_main_v35_apply, val_main_v34_apply, val_main_cst_apply,
    val_main_v33_apply, val_main_v32_apply]
  exact spelt_logistic _

/-- The forgetL gate in the reference — one over one plus the exponential of the negated pre-activation — is its logistic function. -/
theorem forgetL_sig (i : S131072x256.Idx) : val_main_v45 (F := Ideal) x0 x2 x4 x5 x6 x7 x8 x9 x10 x11 x12 x13 x14 x15 x16 x17 x18 x19 x20 x21 x22 i = Ideal.logistic (val_main_v39 (F := Ideal) x0 x2 x4 x5 x6 x7 x8 x9 x10 x11 x12 x13 x14 x15 x16 x17 x18 x19 x20 x21 x22 i) := by
  rw [val_main_v45_apply, val_main_v44_apply, val_main_cst_2_apply, val_main_v43_apply, val_main_v42_apply, val_main_cst_1_apply,
    val_main_v41_apply, val_main_v40_apply]
  exact spelt_logistic _

/-- The forgetR gate in the reference — one over one plus the exponential of the negated pre-activation — is its logistic function. -/
theorem forgetR_sig (i : S131072x256.Idx) : val_main_v53 (F := Ideal) x0 x2 x4 x5 x6 x7 x8 x9 x10 x11 x12 x13 x14 x15 x16 x17 x18 x19 x20 x21 x22 i = Ideal.logistic (val_main_v47 (F := Ideal) x0 x2 x4 x5 x6 x7 x8 x9 x10 x11 x12 x13 x14 x15 x16 x17 x18 x19 x20 x21 x22 i) := by
  rw [val_main_v53_apply, val_main_v52_apply, val_main_cst_4_apply, val_main_v51_apply, val_main_v50_apply, val_main_cst_3_apply,
    val_main_v49_apply, val_main_v48_apply]
  exact spelt_logistic _

/-- The output gate in the reference — one over one plus the exponential of the negated pre-activation — is its logistic function. -/
theorem output_sig (i : S131072x256.Idx) : val_main_v66 (F := Ideal) x0 x2 x4 x5 x6 x7 x8 x9 x10 x11 x12 x13 x14 x15 x16 x17 x18 x19 x20 x21 x22 i = Ideal.logistic (val_main_v60 (F := Ideal) x0 x2 x4 x5 x6 x7 x8 x9 x10 x11 x12 x13 x14 x15 x16 x17 x18 x19 x20 x21 x22 i) := by
  rw [val_main_v66_apply, val_main_v65_apply, val_main_cst_6_apply, val_main_v64_apply, val_main_v63_apply, val_main_cst_5_apply,
    val_main_v62_apply, val_main_v61_apply]
  exact spelt_logistic _

/-- THE REFERENCE'S FIRST RESULT is the cell's new memory. -/
theorem result_c : val_main_v58 (F := Ideal) x0 x1 x2 x3 x4 x5 x6 x7 x8 x9 x10 x11 x12 x13 x14 x15 x16 x17 x18 x19 x20 x21 x22
    = newC x0 x1 x2 x3 x4 x5 x6 x7 x8 x9 x10 x11 x12 x13 x14 x15 x16 x17 x18 x19 x20 := by
  funext i
  rw [val_main_v58_apply, val_main_v56_apply, val_main_v57_apply, val_main_v54_apply, val_main_v55_apply, val_main_v29_apply,
    input_sig, forgetL_sig, forgetR_sig, input_pre, forgetL_pre, forgetR_pre, update_pre]
  rfl

/-- THE REFERENCE'S SECOND RESULT is the cell's new hidden state. -/
theorem result_h : val_main_v68 (F := Ideal) x0 x1 x2 x3 x4 x5 x6 x7 x8 x9 x10 x11 x12 x13 x14 x15 x16 x17 x18 x19 x20 x21 x22
    = newH x0 x1 x2 x3 x4 x5 x6 x7 x8 x9 x10 x11 x12 x13 x14 x15 x16 x17 x18 x19 x20 x21 x22 := by
  funext i
  rw [val_main_v68_apply, val_main_v67_apply, output_sig, output_pre, result_c]
  rfl

end Cert.TreeCell.Ref

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.KernelBlock.lean ====
/-
  What one grid point's body computes, entry by entry.

  The body sees 2048 consecutive nodes: blocks xb, lcb, lhb, rcb, rhb of the five node arrays (2048 rows, 256 channels),
  each gate's three weights already transposed (entry (k, q) of a block is the weight from input channel k to output
  channel q) and each bias as a single row.  A matrix product of a node block with a transposed weight, started from the
  zero accumulator, is at (p, q) the plain sum over k of block(p, k) · weight(k, q); the bias row spread over the 2048
  rows is at (p, q) the bias at q; casting to the narrower float format and the same-shape casts change nothing on the
  extended reals.  So each gate's value at (p, q) is the tanh or the logistic function of `bgate` — the pre-activation
  `preact` of row p of the three node blocks against column q of the gate's three weight blocks and the bias at q — and
  the two stored values at (p, q) are `memAt` and `hidAt` of those.
-/
import proofs.«167922_j65017214926868_2_alg».proof.Proof.Gen.KernelIdeal.Skeleton
import proofs.«167922_j65017214926868_2_alg».proof.Proof.CellSpec
import proofs.«167922_j65017214926868_2_alg».proof.Proof.LibPlainDot
import Idealize.ShloMosaic.Lib.Pipeline.Value
import Idealize.ShloMosaic.Lib.ValueIdx

noncomputable section

namespace Cert.TreeCell.Block

open Idealize.ShloMosaic Idealize.ShloMosaic.ValueIdx Cert.KernelIdeal Cert.KernelIdeal.Gen Cert.TreeCell

/-- A node block times a transposed weight block into the zero accumulator, at (p, q): the sum over the input channels. -/
theorem dot_at (a : FVec Ideal S2048x256 .bf16) (w : FVec Ideal S256x256 .bf16) (p : Fin 2048) (q : Fin 256) :
    matmul dot_S2048x256_S256x256_S2048x256_1_0_0_1_n_n none a w (constant (F := Ideal) S2048x256 .f32 0x00000000#32) (ix2 p q)
      = ∑ k : Fin 256, a (ix2 p k) * w (ix2 k q) :=
  Cert.LibPlainDot.matmul_zero_apply dot_S2048x256_S256x256_S2048x256_1_0_0_1_n_n rfl rfl rfl rfl
    (fun j k => by
      unfold DotDims.lhsIdx
      rw [dif_neg (show ¬(0 : Fin S2048x256.rank) ∈ dot_S2048x256_S256x256_S2048x256_1_0_0_1_n_n.lhsBatch by decide),
        dif_pos (show (0 : Fin S2048x256.rank) ∈ dot_S2048x256_S256x256_S2048x256_1_0_0_1_n_n.lhsNonContracting by decide)]
      rfl)
    (fun j k => by
      unfold DotDims.rhsIdx
      rw [dif_neg (show ¬(1 : Fin S256x256.rank) ∈ dot_S2048x256_S256x256_S2048x256_1_0_0_1_n_n.rhsBatch by decide),
        dif_pos (show (1 : Fin S256x256.rank) ∈ dot_S2048x256_S256x256_S2048x256_1_0_0_1_n_n.rhsNonContracting by decide)]
      rfl)
    none a w p q

/-- A bias row spread over the block's 2048 rows, at (p, q): the bias at q. -/
theorem row_at (v : FVec Ideal S1x256 .f32) (p : Fin 2048) (q : Fin 256) :
    broadcastTo S2048x256 v broadcasts_S1x256_S2048x256 (ix2 p q) = v (ix2 (0 : Fin 1) q) := by
  refine broadcastTo_apply v broadcasts_S1x256_S2048x256 (ix2 p q) (ix2 (0 : Fin 1) q) fun ax => ?_
  match ax with
  | ⟨0, _⟩ => show (0 : Nat) = if (1 : Nat) = 1 then 0 else p.val; rw [if_pos rfl]
  | ⟨1, _⟩ => show q.val = if (256 : Nat) = 1 then 0 else q.val; rw [if_neg (by decide)]

/-- A gate's pre-activation at row p, channel q of a block: row p of the three node blocks against COLUMN q of the
    gate's three transposed weight blocks, and the bias row at q. -/
def bgate (xb lb rb : S2048x256.Idx → EReal) (wx : S256x256.Idx → EReal) (b : S1x256.Idx → EReal)
    (wl wr : S256x256.Idx → EReal) (p : Fin 2048) (q : Fin 256) : EReal :=
  preact (fun k => xb (ix2 p k)) (fun k => lb (ix2 p k)) (fun k => rb (ix2 p k))
    (fun k => wx (ix2 k q)) (fun k => wl (ix2 k q)) (fun k => wr (ix2 k q)) (b (ix2 (0 : Fin 1) q))

variable (x0 x1 x2 x3 x4 : Vec Ideal S2048x256 .f32) (w wl wr : Vec Ideal S256x256 .bf16) (b : Vec Ideal S1x256 .f32)
  (p : Fin 2048) (q : Fin 256)

/-- The update gate at (p, q): the tanh of its pre-activation. -/
theorem update_at : k0_pay6 x0 x2 x4 w b wl wr (ix2 p q) = Ideal.tanh (bgate x0 x2 x4 w b wl wr p q) := by
  unfold k0_pay6 k0_pay3 k0_pay4 k0_pay5
  simp only [tanh_apply, addf_apply, dot_at, row_at, shapeCast_self]
  rfl

/-- The input gate at (p, q): the logistic function of its pre-activation. -/
theorem input_at : k0_pay8 (k0_pay4 x2) (k0_pay5 x4) (k0_pay7 x0 w b) wl wr (ix2 p q)
    = Ideal.logistic (bgate x0 x2 x4 w b wl wr p q) := by
  unfold k0_pay8 k0_pay7 k0_pay3 k0_pay4 k0_pay5
  simp only [logistic_apply, addf_apply, dot_at, row_at, shapeCast_self]
  rfl

/-- The left forget gate at (p, q): the logistic function of its pre-activation. -/
theorem forgetL_at : k0_pay10 (k0_pay3 x0) (k0_pay4 x2) (k0_pay5 x4) w b wl wr (ix2 p q)
    = Ideal.logistic (bgate x0 x2 x4 w b wl wr p q) := by
  unfold k0_pay10 k0_pay9 k0_pay3 k0_pay4 k0_pay5
  simp only [logistic_apply, addf_apply, dot_at, row_at, shapeCast_self]
  rfl

/-- The right forget gate at (p, q): the logistic function of its pre-activation. -/
theorem forgetR_at : k0_pay11 (k0_pay3 x0) (k0_pay4 x2) (k0_pay5 x4) w b wl wr (ix2 p q)
    = Ideal.logistic (bgate x0 x2 x4 w b wl wr p q) := by
  unfold k0_pay11 k0_pay9 k0_pay3 k0_pay4 k0_pay5
  simp only [logistic_apply, addf_apply, dot_at, row_at, shapeCast_self]
  rfl

variable (U I LF RF : FVec Ideal S2048x256 .f32)

/-- The stored memory at (p, q) from the four gates' values there: (i·u + lf·lc) + rf·rc. -/
theorem mem_at : k0_pay1 x1 x3 U I LF RF (ix2 p q)
    = I (ix2 p q) * U (ix2 p q) + LF (ix2 p q) * x1 (ix2 p q) + RF (ix2 p q) * x3 (ix2 p q) := rfl

/-- The stored hidden state at (p, q): the output gate's logistic value times the tanh of the stored memory. -/
theorem hid_at : k0_pay2 (k0_pay3 x0) (k0_pay4 x2) (k0_pay5 x4) x1 x3 U I LF RF (k0_pay12 w)
      (constant (F := Ideal) S2048x256 .f32 0x00000000#32) b wl wr (ix2 p q)
    = Ideal.logistic (bgate x0 x2 x4 w b wl wr p q) * Ideal.tanh (k0_pay1 x1 x3 U I LF RF (ix2 p q)) := by
  unfold k0_pay2 k0_pay12 k0_pay3 k0_pay4 k0_pay5
  simp only [mulf_apply, logistic_apply, tanh_apply, addf_apply, dot_at, row_at, shapeCast_self]
  rfl

/-- THE STORED MEMORY at any entry y of the block, from the input blocks: `memAt` of the four gates' pre-activations at
    row (y 0), channel (y 1), and the two children's memory blocks at y. -/
theorem cell_c_at (x0 x1 x2 x3 x4 : Vec Ideal S2048x256 .f32) (x5 x6 x7 : Vec Ideal S256x256 .bf16) (x9 x10 x11 : Vec Ideal S1x256 .f32)
    (x13 x14 x15 x16 x18 x19 x20 x21 : Vec Ideal S256x256 .bf16) (y : S2048x256.Idx) :
    k0_pay1 x1 x3 (k0_pay6 x0 x2 x4 x5 x9 x13 x18) (k0_pay8 (k0_pay4 x2) (k0_pay5 x4) (k0_pay7 x0 x6 x10) x14 x19)
        (k0_pay10 (k0_pay3 x0) (k0_pay4 x2) (k0_pay5 x4) x7 x11 x15 x20)
        (k0_pay11 (k0_pay3 x0) (k0_pay4 x2) (k0_pay5 x4) x7 x11 x16 x21) y
      = memAt (bgate x0 x2 x4 x5 x9 x13 x18 (y 0) (y 1)) (bgate x0 x2 x4 x6 x10 x14 x19 (y 0) (y 1))
          (bgate x0 x2 x4 x7 x11 x15 x20 (y 0) (y 1)) (bgate x0 x2 x4 x7 x11 x16 x21 (y 0) (y 1)) (x1 y) (x3 y) := by
  obtain ⟨p, q, rfl⟩ : ∃ (p : Fin 2048) (q : Fin 256), y = ix2 p q := ⟨y 0, y 1, eq_ix2 y⟩
  rw [mem_at, update_at, input_at, forgetL_at, forgetR_at]
  rfl

/-- THE STORED HIDDEN STATE at any entry y of the block: `hidAt` of the output gate's pre-activation there and the stored
    memory there. -/
theorem cell_h_at (x0 x1 x2 x3 x4 : Vec Ideal S2048x256 .f32) (x5 x6 x7 x8 : Vec Ideal S256x256 .bf16) (x9 x10 x11 x12 : Vec Ideal S1x256 .f32)
    (x13 x14 x15 x16 x17 x18 x19 x20 x21 x22 : Vec Ideal S256x256 .bf16) (y : S2048x256.Idx) :
    k0_pay2 (k0_pay3 x0) (k0_pay4 x2) (k0_pay5 x4) x1 x3 (k0_pay6 x0 x2 x4 x5 x9 x13 x18)
        (k0_pay8 (k0_pay4 x2) (k0_pay5 x4) (k0_pay7 x0 x6 x10) x14 x19)
        (k0_pay10 (k0_pay3 x0) (k0_pay4 x2) (k0_pay5 x4) x7 x11 x15 x20)
        (k0_pay11 (k0_pay3 x0) (k0_pay4 x2) (k0_pay5 x4) x7 x11 x16 x21) (k0_pay12 x8)
        (constant (F := Ideal) S2048x256 .f32 0x00000000#32) x12 x17 x22 y
      = hidAt (bgate x0 x2 x4 x8 x12 x17 x22 (y 0) (y 1))
          (memAt (bgate x0 x2 x4 x5 x9 x13 x18 (y 0) (y 1)) (bgate x0 x2 x4 x6 x10 x14 x19 (y 0) (y 1))
            (bgate x0 x2 x4 x7 x11 x15 x20 (y 0) (y 1)) (bgate x0 x2 x4 x7 x11 x16 x21 (y 0) (y 1)) (x1 y) (x3 y)) := by
  have hc := cell_c_at x0 x1 x2 x3 x4 x5 x6 x7 x9 x10 x11 x13 x14 x15 x16 x18 x19 x20 x21 y
  obtain ⟨p, q, rfl⟩ : ∃ (p : Fin 2048) (q : Fin 256), y = ix2 p q := ⟨y 0, y 1, eq_ix2 y⟩
  rw [hid_at, hc]
  rfl

/-- A block's gate is the whole arrays' gate at node n, channel q, once row p of each node block is row n of its array,
    column q of each transposed weight block is row q of its weight, and the bias row at q is the bias at q. -/
theorem bgate_eq_gate (xb lb rb : S2048x256.Idx → EReal) (wx : S256x256.Idx → EReal) (bb : S1x256.Idx → EReal)
    (wl wr : S256x256.Idx → EReal) (x lh rh : Nodes.Idx → EReal) (W : Weight.Idx → EReal) (bias : Bias.Idx → EReal)
    (Ul Ur : Weight.Idx → EReal) (p : Fin 2048) (q : Fin 256) (n : Fin 131072)
    (hx : ∀ k : Fin 256, xb (ix2 p k) = x (ix2 n k)) (hl : ∀ k : Fin 256, lb (ix2 p k) = lh (ix2 n k))
    (hr : ∀ k : Fin 256, rb (ix2 p k) = rh (ix2 n k)) (hW : ∀ k : Fin 256, wx (ix2 k q) = W (ix2 q k))
    (hUl : ∀ k : Fin 256, wl (ix2 k q) = Ul (ix2 q k)) (hUr : ∀ k : Fin 256, wr (ix2 k q) = Ur (ix2 q k))
    (hb : bb (ix2 (0 : Fin 1) q) = bias (ix1 q)) :
    bgate xb lb rb wx bb wl wr p q = gate x lh rh W bias Ul Ur n q := by
  unfold bgate gate
  simp only [hx, hl, hr, hW, hUl, hUr, hb]

end Cert.TreeCell.Block

end
-- ==== Proof.KernelArray.lean ====
/-
  From the blocks to the two result arrays.

  The grid has 64 points; point t stages rows 2048·t … 2048·t + 2047 of each of the five node arrays and of the two
  result arrays, and (at every point) the whole of each transposed weight and of each bias row.  So entry y of a node
  block at point t is the array's entry at node 2048·t + (y 0), channel (y 1); entry (k, q) of a weight block is the
  weight at (q, k), the host having transposed it (the change of float format being the identity on the extended reals);
  entry (0, q) of a bias block is the bias at q, the host having recast the vector as one row.  With these, what point t
  writes back to each result array is that point's block of `newC` / `newH` of the argument arrays; the 64 blocks tile
  the arrays (node n is in the block of point n / 2048); hence after the run the two result arrays ARE `newC` and
  `newH` of the arguments.
-/
import proofs.«167922_j65017214926868_2_alg».proof.Proof.Gen.KernelIdeal.Value
import proofs.«167922_j65017214926868_2_alg».proof.Proof.KernelBlock
import Idealize.ShloMosaic.Lib.Pipeline.Value
import Idealize.ShloMosaic.Lib.ValueLayout
import Idealize.ShloMosaic.Lib.Tactic
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.TreeCell.Kernel

open Cert.KernelIdeal Cert.KernelIdeal.Gen Cert.KernelIdeal.Value Cert.TreeCell Cert.TreeCell.Block

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits: decided over the 64 points -/

theorem idx_node0 : ∀ t : Fin cfg0.N, win0_0.index t (0 : Fin 2) = t.val ∧ win0_0.index t (1 : Fin 2) = 0 :=
  (by decide +kernel : ∀ t : Fin grid0.N, _)
theorem idx_node1 : ∀ t : Fin cfg0.N, win0_1.index t (0 : Fin 2) = t.val ∧ win0_1.index t (1 : Fin 2) = 0 :=
  (by decide +kernel : ∀ t : Fin grid0.N, _)
theorem idx_node2 : ∀ t : Fin cfg0.N, win0_2.index t (0 : Fin 2) = t.val ∧ win0_2.index t (1 : Fin 2) = 0 :=
  (by decide +kernel : ∀ t : Fin grid0.N, _)
theorem idx_node3 : ∀ t : Fin cfg0.N, win0_3.index t (0 : Fin 2) = t.val ∧ win0_3.index t (1 : Fin 2) = 0 :=
  (by decide +kernel : ∀ t : Fin grid0.N, _)
theorem idx_node4 : ∀ t : Fin cfg0.N, win0_4.index t (0 : Fin 2) = t.val ∧ win0_4.index t (1 : Fin 2) = 0 :=
  (by decide +kernel : ∀ t : Fin grid0.N, _)
theorem idx_node23 : ∀ t : Fin cfg0.N, win0_23.index t (0 : Fin 2) = t.val ∧ win0_23.index t (1 : Fin 2) = 0 :=
  (by decide +kernel : ∀ t : Fin grid0.N, _)
theorem idx_node24 : ∀ t : Fin cfg0.N, win0_24.index t (0 : Fin 2) = t.val ∧ win0_24.index t (1 : Fin 2) = 0 :=
  (by decide +kernel : ∀ t : Fin grid0.N, _)
theorem idx_fixed5 : ∀ t : Fin cfg0.N, win0_5.index t (0 : Fin 2) = 0 ∧ win0_5.index t (1 : Fin 2) = 0 :=
  (by decide +kernel : ∀ t : Fin grid0.N, _)
theorem idx_fixed6 : ∀ t : Fin cfg0.N, win0_6.index t (0 : Fin 2) = 0 ∧ win0_6.index t (1 : Fin 2) = 0 :=
  (by decide +kernel : ∀ t : Fin grid0.N, _)
theorem idx_fixed7 : ∀ t : Fin cfg0.N, win0_7.index t (0 : Fin 2) = 0 ∧ win0_7.index t (1 : Fin 2) = 0 :=
  (by decide +kernel : ∀ t : Fin grid0.N, _)
theorem idx_fixed8 : ∀ t : Fin cfg0.N, win0_8.index t (0 : Fin 2) = 0 ∧ win0_8.index t (1 : Fin 2) = 0 :=
  (by decide +kernel : ∀ t : Fin grid0.N, _)
theorem idx_fixed9 : ∀ t : Fin cfg0.N, win0_9.index t (0 : Fin 2) = 0 ∧ win0_9.index t (1 : Fin 2) = 0 :=
  (by decide +kernel : ∀ t : Fin grid0.N, _)
theorem idx_fixed10 : ∀ t : Fin cfg0.N, win0_10.index t (0 : Fin 2) = 0 ∧ win0_10.index t (1 : Fin 2) = 0 :=
  (by decide +kernel : ∀ t : Fin grid0.N, _)
theorem idx_fixed11 : ∀ t : Fin cfg0.N, win0_11.index t (0 : Fin 2) = 0 ∧ win0_11.index t (1 : Fin 2) = 0 :=
  (by decide +kernel : ∀ t : Fin grid0.N, _)
theorem idx_fixed12 : ∀ t : Fin cfg0.N, win0_12.index t (0 : Fin 2) = 0 ∧ win0_12.index t (1 : Fin 2) = 0 :=
  (by decide +kernel : ∀ t : Fin grid0.N, _)
theorem idx_fixed13 : ∀ t : Fin cfg0.N, win0_13.index t (0 : Fin 2) = 0 ∧ win0_13.index t (1 : Fin 2) = 0 :=
  (by decide +kernel : ∀ t : Fin grid0.N, _)
theorem idx_fixed14 : ∀ t : Fin cfg0.N, win0_14.index t (0 : Fin 2) = 0 ∧ win0_14.index t (1 : Fin 2) = 0 :=
  (by decide +kernel : ∀ t : Fin grid0.N, _)
theorem idx_fixed15 : ∀ t : Fin cfg0.N, win0_15.index t (0 : Fin 2) = 0 ∧ win0_15.index t (1 : Fin 2) = 0 :=
  (by decide +kernel : ∀ t : Fin grid0.N, _)
theorem idx_fixed16 : ∀ t : Fin cfg0.N, win0_16.index t (0 : Fin 2) = 0 ∧ win0_16.index t (1 : Fin 2) = 0 :=
  (by decide +kernel : ∀ t : Fin grid0.N, _)
theorem idx_fixed17 : ∀ t : Fin cfg0.N, win0_17.index t (0 : Fin 2) = 0 ∧ win0_17.index t (1 : Fin 2) = 0 :=
  (by decide +kernel : ∀ t : Fin grid0.N, _)
theorem idx_fixed18 : ∀ t : Fin cfg0.N, win0_18.index t (0 : Fin 2) = 0 ∧ win0_18.index t (1 : Fin 2) = 0 :=
  (by decide +kernel : ∀ t : Fin grid0.N, _)
theorem idx_fixed19 : ∀ t : Fin cfg0.N, win0_19.index t (0 : Fin 2) = 0 ∧ win0_19.index t (1 : Fin 2) = 0 :=
  (by decide +kernel : ∀ t : Fin grid0.N, _)
theorem idx_fixed20 : ∀ t : Fin cfg0.N, win0_20.index t (0 : Fin 2) = 0 ∧ win0_20.index t (1 : Fin 2) = 0 :=
  (by decide +kernel : ∀ t : Fin grid0.N, _)
theorem idx_fixed21 : ∀ t : Fin cfg0.N, win0_21.index t (0 : Fin 2) = 0 ∧ win0_21.index t (1 : Fin 2) = 0 :=
  (by decide +kernel : ∀ t : Fin grid0.N, _)
theorem idx_fixed22 : ∀ t : Fin cfg0.N, win0_22.index t (0 : Fin 2) = 0 ∧ win0_22.index t (1 : Fin 2) = 0 :=
  (by decide +kernel : ∀ t : Fin grid0.N, _)

/-! ## The arrays the host prepared before the region -/

theorem entry_w5 (c : Dev nD) : @Eq (FVec Ideal S256x256 .bf16) (V m c main_v1)
    (truncf .bf16 (transpose S256x256 [1, 0] (m ((c : Thread nD τ).loc main_arg5)) transposes_S256x256_S256x256_1_0) bitsLt_bf16_f32) := by
  dsimp only [Gen.V, Gen.hostOps0]; after_results <;> rfl
theorem entry_w6 (c : Dev nD) : @Eq (FVec Ideal S256x256 .bf16) (V m c main_v3)
    (truncf .bf16 (transpose S256x256 [1, 0] (m ((c : Thread nD τ).loc main_arg11)) transposes_S256x256_S256x256_1_0) bitsLt_bf16_f32) := by
  dsimp only [Gen.V, Gen.hostOps0]; after_results <;> rfl
theorem entry_w7 (c : Dev nD) : @Eq (FVec Ideal S256x256 .bf16) (V m c main_v5)
    (truncf .bf16 (transpose S256x256 [1, 0] (m ((c : Thread nD τ).loc main_arg9)) transposes_S256x256_S256x256_1_0) bitsLt_bf16_f32) := by
  dsimp only [Gen.V, Gen.hostOps0]; after_results <;> rfl
theorem entry_w8 (c : Dev nD) : @Eq (FVec Ideal S256x256 .bf16) (V m c main_v7)
    (truncf .bf16 (transpose S256x256 [1, 0] (m ((c : Thread nD τ).loc main_arg7)) transposes_S256x256_S256x256_1_0) bitsLt_bf16_f32) := by
  dsimp only [Gen.V, Gen.hostOps0]; after_results <;> rfl
theorem entry_w13 (c : Dev nD) : @Eq (FVec Ideal S256x256 .bf16) (V m c main_v9)
    (truncf .bf16 (transpose S256x256 [1, 0] (m ((c : Thread nD τ).loc main_arg19)) transposes_S256x256_S256x256_1_0) bitsLt_bf16_f32) := by
  dsimp only [Gen.V, Gen.hostOps0]; after_results <;> rfl
theorem entry_w14 (c : Dev nD) : @Eq (FVec Ideal S256x256 .bf16) (V m c main_v11)
    (truncf .bf16 (transpose S256x256 [1, 0] (m ((c : Thread nD τ).loc main_arg13)) transposes_S256x256_S256x256_1_0) bitsLt_bf16_f32) := by
  dsimp only [Gen.V, Gen.hostOps0]; after_results <;> rfl
theorem entry_w15 (c : Dev nD) : @Eq (FVec Ideal S256x256 .bf16) (V m c main_v13)
    (truncf .bf16 (transpose S256x256 [1, 0] (m ((c : Thread nD τ).loc main_arg15)) transposes_S256x256_S256x256_1_0) bitsLt_bf16_f32) := by
  dsimp only [Gen.V, Gen.hostOps0]; after_results <;> rfl
theorem entry_w16 (c : Dev nD) : @Eq (FVec Ideal S256x256 .bf16) (V m c main_v15)
    (truncf .bf16 (transpose S256x256 [1, 0] (m ((c : Thread nD τ).loc main_arg17)) transposes_S256x256_S256x256_1_0) bitsLt_bf16_f32) := by
  dsimp only [Gen.V, Gen.hostOps0]; after_results <;> rfl
theorem entry_w17 (c : Dev nD) : @Eq (FVec Ideal S256x256 .bf16) (V m c main_v17)
    (truncf .bf16 (transpose S256x256 [1, 0] (m ((c : Thread nD τ).loc main_arg21)) transposes_S256x256_S256x256_1_0) bitsLt_bf16_f32) := by
  dsimp only [Gen.V, Gen.hostOps0]; after_results <;> rfl
theorem entry_w18 (c : Dev nD) : @Eq (FVec Ideal S256x256 .bf16) (V m c main_v19)
    (truncf .bf16 (transpose S256x256 [1, 0] (m ((c : Thread nD τ).loc main_arg20)) transposes_S256x256_S256x256_1_0) bitsLt_bf16_f32) := by
  dsimp only [Gen.V, Gen.hostOps0]; after_results <;> rfl
theorem entry_w19 (c : Dev nD) : @Eq (FVec Ideal S256x256 .bf16) (V m c main_v21)
    (truncf .bf16 (transpose S256x256 [1, 0] (m ((c : Thread nD τ).loc main_arg14)) transposes_S256x256_S256x256_1_0) bitsLt_bf16_f32) := by
  dsimp only [Gen.V, Gen.hostOps0]; after_results <;> rfl
theorem entry_w20 (c : Dev nD) : @Eq (FVec Ideal S256x256 .bf16) (V m c main_v23)
    (truncf .bf16 (transpose S256x256 [1, 0] (m ((c : Thread nD τ).loc main_arg16)) transposes_S256x256_S256x256_1_0) bitsLt_bf16_f32) := by
  dsimp only [Gen.V, Gen.hostOps0]; after_results <;> rfl
theorem entry_w21 (c : Dev nD) : @Eq (FVec Ideal S256x256 .bf16) (V m c main_v25)
    (truncf .bf16 (transpose S256x256 [1, 0] (m ((c : Thread nD τ).loc main_arg18)) transposes_S256x256_S256x256_1_0) bitsLt_bf16_f32) := by
  dsimp only [Gen.V, Gen.hostOps0]; after_results <;> rfl
theorem entry_w22 (c : Dev nD) : @Eq (FVec Ideal S256x256 .bf16) (V m c main_v27)
    (truncf .bf16 (transpose S256x256 [1, 0] (m ((c : Thread nD τ).loc main_arg22)) transposes_S256x256_S256x256_1_0) bitsLt_bf16_f32) := by
  dsimp only [Gen.V, Gen.hostOps0]; after_results <;> rfl
theorem entry_b9 (c : Dev nD) : (V m c main_v28 : S1x256.Idx → EReal)
    = shapeCast S1x256 (m ((c : Thread nD τ).loc main_arg6)) shapeCasts_S256_S1x256 := by
  dsimp only [Gen.V, Gen.hostOps0]; after_results <;> rfl
theorem entry_b10 (c : Dev nD) : (V m c main_v29 : S1x256.Idx → EReal)
    = shapeCast S1x256 (m ((c : Thread nD τ).loc main_arg12)) shapeCasts_S256_S1x256 := by
  dsimp only [Gen.V, Gen.hostOps0]; after_results <;> rfl
theorem entry_b11 (c : Dev nD) : (V m c main_v30 : S1x256.Idx → EReal)
    = shapeCast S1x256 (m ((c : Thread nD τ).loc main_arg10)) shapeCasts_S256_S1x256 := by
  dsimp only [Gen.V, Gen.hostOps0]; after_results <;> rfl
theorem entry_b12 (c : Dev nD) : (V m c main_v31 : S1x256.Idx → EReal)
    = shapeCast S1x256 (m ((c : Thread nD τ).loc main_arg8)) shapeCasts_S256_S1x256 := by
  dsimp only [Gen.V, Gen.hostOps0]; after_results <;> rfl

/-! ## A block entry is an argument entry -/

/-- Node window 0's block at point t, entry y, is its array at row 2048·t + (y 0), channel (y 1). -/
theorem node_blk0 (c : Dev nD) (t : Fin cfg0.N) (y : S2048x256.Idx) (i : S131072x256.Idx)
    (h0 : (i 0).val = 2048 * t.val + (y 0).val) (h1 : (i 1).val = (y 1).val) :
    (iblk m c 0 t : Vec Ideal S2048x256 .f32) y = ((m ((c : Thread nD τ).loc main_arg0)) : S131072x256.Idx → EReal) i := by
  have hi := idx_node0 t
  unfold iblk
  rw [View.read_apply]
  show V m c main_arg0 _ = _
  rw [V_main_arg0]
  congr 1
  funext a
  apply Fin.ext
  match a with
  | ⟨0, _⟩ => show win0_0.index t 0 * 2048 + 1 * (y 0).val = (i 0).val; rw [hi.1, h0]; omega
  | ⟨1, _⟩ => show win0_0.index t 1 * 256 + 1 * (y 1).val = (i 1).val; rw [hi.2, h1]; omega

/-- Node window 1's block at point t, entry y, is its array at row 2048·t + (y 0), channel (y 1). -/
theorem node_blk1 (c : Dev nD) (t : Fin cfg0.N) (y : S2048x256.Idx) (i : S131072x256.Idx)
    (h0 : (i 0).val = 2048 * t.val + (y 0).val) (h1 : (i 1).val = (y 1).val) :
    (iblk m c 1 t : Vec Ideal S2048x256 .f32) y = ((m ((c : Thread nD τ).loc main_arg1)) : S131072x256.Idx → EReal) i := by
  have hi := idx_node1 t
  unfold iblk
  rw [View.read_apply]
  show V m c main_arg1 _ = _
  rw [V_main_arg1]
  congr 1
  funext a
  apply Fin.ext
  match a with
  | ⟨0, _⟩ => show win0_1.index t 0 * 2048 + 1 * (y 0).val = (i 0).val; rw [hi.1, h0]; omega
  | ⟨1, _⟩ => show win0_1.index t 1 * 256 + 1 * (y 1).val = (i 1).val; rw [hi.2, h1]; omega

/-- Node window 2's block at point t, entry y, is its array at row 2048·t + (y 0), channel (y 1). -/
theorem node_blk2 (c : Dev nD) (t : Fin cfg0.N) (y : S2048x256.Idx) (i : S131072x256.Idx)
    (h0 : (i 0).val = 2048 * t.val + (y 0).val) (h1 : (i 1).val = (y 1).val) :
    (iblk m c 2 t : Vec Ideal S2048x256 .f32) y = ((m ((c : Thread nD τ).loc main_arg2)) : S131072x256.Idx → EReal) i := by
  have hi := idx_node2 t
  unfold iblk
  rw [View.read_apply]
  show V m c main_arg2 _ = _
  rw [V_main_arg2]
  congr 1
  funext a
  apply Fin.ext
  match a with
  | ⟨0, _⟩ => show win0_2.index t 0 * 2048 + 1 * (y 0).val = (i 0).val; rw [hi.1, h0]; omega
  | ⟨1, _⟩ => show win0_2.index t 1 * 256 + 1 * (y 1).val = (i 1).val; rw [hi.2, h1]; omega

/-- Node window 3's block at point t, entry y, is its array at row 2048·t + (y 0), channel (y 1). -/
theorem node_blk3 (c : Dev nD) (t : Fin cfg0.N) (y : S2048x256.Idx) (i : S131072x256.Idx)
    (h0 : (i 0).val = 2048 * t.val + (y 0).val) (h1 : (i 1).val = (y 1).val) :
    (iblk m c 3 t : Vec Ideal S2048x256 .f32) y = ((m ((c : Thread nD τ).loc main_arg3)) : S131072x256.Idx → EReal) i := by
  have hi := idx_node3 t
  unfold iblk
  rw [View.read_apply]
  show V m c main_arg3 _ = _
  rw [V_main_arg3]
  congr 1
  funext a
  apply Fin.ext
  match a with
  | ⟨0, _⟩ => show win0_3.index t 0 * 2048 + 1 * (y 0).val = (i 0).val; rw [hi.1, h0]; omega
  | ⟨1, _⟩ => show win0_3.index t 1 * 256 + 1 * (y 1).val = (i 1).val; rw [hi.2, h1]; omega

/-- Node window 4's block at point t, entry y, is its array at row 2048·t + (y 0), channel (y 1). -/
theorem node_blk4 (c : Dev nD) (t : Fin cfg0.N) (y : S2048x256.Idx) (i : S131072x256.Idx)
    (h0 : (i 0).val = 2048 * t.val + (y 0).val) (h1 : (i 1).val = (y 1).val) :
    (iblk m c 4 t : Vec Ideal S2048x256 .f32) y = ((m ((c : Thread nD τ).loc main_arg4)) : S131072x256.Idx → EReal) i := by
  have hi := idx_node4 t
  unfold iblk
  rw [View.read_apply]
  show V m c main_arg4 _ = _
  rw [V_main_arg4]
  congr 1
  funext a
  apply Fin.ext
  match a with
  | ⟨0, _⟩ => show win0_4.index t 0 * 2048 + 1 * (y 0).val = (i 0).val; rw [hi.1, h0]; omega
  | ⟨1, _⟩ => show win0_4.index t 1 * 256 + 1 * (y 1).val = (i 1).val; rw [hi.2, h1]; omega

/-- Weight window 5's block (the whole transposed weight, at every point) at (k, q) is its weight at (q, k). -/
theorem weight_blk5 (c : Dev nD) (t : Fin cfg0.N) (k q : Fin 256) :
    (iblk m c 5 t : Vec Ideal S256x256 .bf16) (ix2 k q) = ((m ((c : Thread nD τ).loc main_arg5)) : S256x256.Idx → EReal) (ix2 q k) := by
  have hi := idx_fixed5 t
  unfold iblk
  rw [View.read_apply]
  show V m c main_v1 _ = _
  rw [entry_w5]
  refine transpose_apply [1, 0] _ transposes_S256x256_S256x256_1_0 _ (ix2 q k) fun b => ?_
  match b with
  | ⟨0, _⟩ => show k.val = win0_5.index t 0 * 256 + 1 * k.val; rw [hi.1]; omega
  | ⟨1, _⟩ => show q.val = win0_5.index t 1 * 256 + 1 * q.val; rw [hi.2]; omega

/-- Weight window 6's block (the whole transposed weight, at every point) at (k, q) is its weight at (q, k). -/
theorem weight_blk6 (c : Dev nD) (t : Fin cfg0.N) (k q : Fin 256) :
    (iblk m c 6 t : Vec Ideal S256x256 .bf16) (ix2 k q) = ((m ((c : Thread nD τ).loc main_arg11)) : S256x256.Idx → EReal) (ix2 q k) := by
  have hi := idx_fixed6 t
  unfold iblk
  rw [View.read_apply]
  show V m c main_v3 _ = _
  rw [entry_w6]
  refine transpose_apply [1, 0] _ transposes_S256x256_S256x256_1_0 _ (ix2 q k) fun b => ?_
  match b with
  | ⟨0, _⟩ => show k.val = win0_6.index t 0 * 256 + 1 * k.val; rw [hi.1]; omega
  | ⟨1, _⟩ => show q.val = win0_6.index t 1 * 256 + 1 * q.val; rw [hi.2]; omega

/-- Weight window 7's block (the whole transposed weight, at every point) at (k, q) is its weight at (q, k). -/
theorem weight_blk7 (c : Dev nD) (t : Fin cfg0.N) (k q : Fin 256) :
    (iblk m c 7 t : Vec Ideal S256x256 .bf16) (ix2 k q) = ((m ((c : Thread nD τ).loc main_arg9)) : S256x256.Idx → EReal) (ix2 q k) := by
  have hi := idx_fixed7 t
  unfold iblk
  rw [View.read_apply]
  show V m c main_v5 _ = _
  rw [entry_w7]
  refine transpose_apply [1, 0] _ transposes_S256x256_S256x256_1_0 _ (ix2 q k) fun b => ?_
  match b with
  | ⟨0, _⟩ => show k.val = win0_7.index t 0 * 256 + 1 * k.val; rw [hi.1]; omega
  | ⟨1, _⟩ => show q.val = win0_7.index t 1 * 256 + 1 * q.val; rw [hi.2]; omega

/-- Weight window 8's block (the whole transposed weight, at every point) at (k, q) is its weight at (q, k). -/
theorem weight_blk8 (c : Dev nD) (t : Fin cfg0.N) (k q : Fin 256) :
    (iblk m c 8 t : Vec Ideal S256x256 .bf16) (ix2 k q) = ((m ((c : Thread nD τ).loc main_arg7)) : S256x256.Idx → EReal) (ix2 q k) := by
  have hi := idx_fixed8 t
  unfold iblk
  rw [View.read_apply]
  show V m c main_v7 _ = _
  rw [entry_w8]
  refine transpose_apply [1, 0] _ transposes_S256x256_S256x256_1_0 _ (ix2 q k) fun b => ?_
  match b with
  | ⟨0, _⟩ => show k.val = win0_8.index t 0 * 256 + 1 * k.val; rw [hi.1]; omega
  | ⟨1, _⟩ => show q.val = win0_8.index t 1 * 256 + 1 * q.val; rw [hi.2]; omega

/-- Weight window 13's block (the whole transposed weight, at every point) at (k, q) is its weight at (q, k). -/
theorem weight_blk13 (c : Dev nD) (t : Fin cfg0.N) (k q : Fin 256) :
    (iblk m c 13 t : Vec Ideal S256x256 .bf16) (ix2 k q) = ((m ((c : Thread nD τ).loc main_arg19)) : S256x256.Idx → EReal) (ix2 q k) := by
  have hi := idx_fixed13 t
  unfold iblk
  rw [View.read_apply]
  show V m c main_v9 _ = _
  rw [entry_w13]
  refine transpose_apply [1, 0] _ transposes_S256x256_S256x256_1_0 _ (ix2 q k) fun b => ?_
  match b with
  | ⟨0, _⟩ => show k.val = win0_13.index t 0 * 256 + 1 * k.val; rw [hi.1]; omega
  | ⟨1, _⟩ => show q.val = win0_13.index t 1 * 256 + 1 * q.val; rw [hi.2]; omega

/-- Weight window 14's block (the whole transposed weight, at every point) at (k, q) is its weight at (q, k). -/
theorem weight_blk14 (c : Dev nD) (t : Fin cfg0.N) (k q : Fin 256) :
    (iblk m c 14 t : Vec Ideal S256x256 .bf16) (ix2 k q) = ((m ((c : Thread nD τ).loc main_arg13)) : S256x256.Idx → EReal) (ix2 q k) := by
  have hi := idx_fixed14 t
  unfold iblk
  rw [View.read_apply]
  show V m c main_v11 _ = _
  rw [entry_w14]
  refine transpose_apply [1, 0] _ transposes_S256x256_S256x256_1_0 _ (ix2 q k) fun b => ?_
  match b with
  | ⟨0, _⟩ => show k.val = win0_14.index t 0 * 256 + 1 * k.val; rw [hi.1]; omega
  | ⟨1, _⟩ => show q.val = win0_14.index t 1 * 256 + 1 * q.val; rw [hi.2]; omega

/-- Weight window 15's block (the whole transposed weight, at every point) at (k, q) is its weight at (q, k). -/
theorem weight_blk15 (c : Dev nD) (t : Fin cfg0.N) (k q : Fin 256) :
    (iblk m c 15 t : Vec Ideal S256x256 .bf16) (ix2 k q) = ((m ((c : Thread nD τ).loc main_arg15)) : S256x256.Idx → EReal) (ix2 q k) := by
  have hi := idx_fixed15 t
  unfold iblk
  rw [View.read_apply]
  show V m c main_v13 _ = _
  rw [entry_w15]
  refine transpose_apply [1, 0] _ transposes_S256x256_S256x256_1_0 _ (ix2 q k) fun b => ?_
  match b with
  | ⟨0, _⟩ => show k.val = win0_15.index t 0 * 256 + 1 * k.val; rw [hi.1]; omega
  | ⟨1, _⟩ => show q.val = win0_15.index t 1 * 256 + 1 * q.val; rw [hi.2]; omega

/-- Weight window 16's block (the whole transposed weight, at every point) at (k, q) is its weight at (q, k). -/
theorem weight_blk16 (c : Dev nD) (t : Fin cfg0.N) (k q : Fin 256) :
    (iblk m c 16 t : Vec Ideal S256x256 .bf16) (ix2 k q) = ((m ((c : Thread nD τ).loc main_arg17)) : S256x256.Idx → EReal) (ix2 q k) := by
  have hi := idx_fixed16 t
  unfold iblk
  rw [View.read_apply]
  show V m c main_v15 _ = _
  rw [entry_w16]
  refine transpose_apply [1, 0] _ transposes_S256x256_S256x256_1_0 _ (ix2 q k) fun b => ?_
  match b with
  | ⟨0, _⟩ => show k.val = win0_16.index t 0 * 256 + 1 * k.val; rw [hi.1]; omega
  | ⟨1, _⟩ => show q.val = win0_16.index t 1 * 256 + 1 * q.val; rw [hi.2]; omega

/-- Weight window 17's block (the whole transposed weight, at every point) at (k, q) is its weight at (q, k). -/
theorem weight_blk17 (c : Dev nD) (t : Fin cfg0.N) (k q : Fin 256) :
    (iblk m c 17 t : Vec Ideal S256x256 .bf16) (ix2 k q) = ((m ((c : Thread nD τ).loc main_arg21)) : S256x256.Idx → EReal) (ix2 q k) := by
  have hi := idx_fixed17 t
  unfold iblk
  rw [View.read_apply]
  show V m c main_v17 _ = _
  rw [entry_w17]
  refine transpose_apply [1, 0] _ transposes_S256x256_S256x256_1_0 _ (ix2 q k) fun b => ?_
  match b with
  | ⟨0, _⟩ => show k.val = win0_17.index t 0 * 256 + 1 * k.val; rw [hi.1]; omega
  | ⟨1, _⟩ => show q.val = win0_17.index t 1 * 256 + 1 * q.val; rw [hi.2]; omega

/-- Weight window 18's block (the whole transposed weight, at every point) at (k, q) is its weight at (q, k). -/
theorem weight_blk18 (c : Dev nD) (t : Fin cfg0.N) (k q : Fin 256) :
    (iblk m c 18 t : Vec Ideal S256x256 .bf16) (ix2 k q) = ((m ((c : Thread nD τ).loc main_arg20)) : S256x256.Idx → EReal) (ix2 q k) := by
  have hi := idx_fixed18 t
  unfold iblk
  rw [View.read_apply]
  show V m c main_v19 _ = _
  rw [entry_w18]
  refine transpose_apply [1, 0] _ transposes_S256x256_S256x256_1_0 _ (ix2 q k) fun b => ?_
  match b with
  | ⟨0, _⟩ => show k.val = win0_18.index t 0 * 256 + 1 * k.val; rw [hi.1]; omega
  | ⟨1, _⟩ => show q.val = win0_18.index t 1 * 256 + 1 * q.val; rw [hi.2]; omega

/-- Weight window 19's block (the whole transposed weight, at every point) at (k, q) is its weight at (q, k). -/
theorem weight_blk19 (c : Dev nD) (t : Fin cfg0.N) (k q : Fin 256) :
    (iblk m c 19 t : Vec Ideal S256x256 .bf16) (ix2 k q) = ((m ((c : Thread nD τ).loc main_arg14)) : S256x256.Idx → EReal) (ix2 q k) := by
  have hi := idx_fixed19 t
  unfold iblk
  rw [View.read_apply]
  show V m c main_v21 _ = _
  rw [entry_w19]
  refine transpose_apply [1, 0] _ transposes_S256x256_S256x256_1_0 _ (ix2 q k) fun b => ?_
  match b with
  | ⟨0, _⟩ => show k.val = win0_19.index t 0 * 256 + 1 * k.val; rw [hi.1]; omega
  | ⟨1, _⟩ => show q.val = win0_19.index t 1 * 256 + 1 * q.val; rw [hi.2]; omega

/-- Weight window 20's block (the whole transposed weight, at every point) at (k, q) is its weight at (q, k). -/
theorem weight_blk20 (c : Dev nD) (t : Fin cfg0.N) (k q : Fin 256) :
    (iblk m c 20 t : Vec Ideal S256x256 .bf16) (ix2 k q) = ((m ((c : Thread nD τ).loc main_arg16)) : S256x256.Idx → EReal) (ix2 q k) := by
  have hi := idx_fixed20 t
  unfold iblk
  rw [View.read_apply]
  show V m c main_v23 _ = _
  rw [entry_w20]
  refine transpose_apply [1, 0] _ transposes_S256x256_S256x256_1_0 _ (ix2 q k) fun b => ?_
  match b with
  | ⟨0, _⟩ => show k.val = win0_20.index t 0 * 256 + 1 * k.val; rw [hi.1]; omega
  | ⟨1, _⟩ => show q.val = win0_20.index t 1 * 256 + 1 * q.val; rw [hi.2]; omega

/-- Weight window 21's block (the whole transposed weight, at every point) at (k, q) is its weight at (q, k). -/
theorem weight_blk21 (c : Dev nD) (t : Fin cfg0.N) (k q : Fin 256) :
    (iblk m c 21 t : Vec Ideal S256x256 .bf16) (ix2 k q) = ((m ((c : Thread nD τ).loc main_arg18)) : S256x256.Idx → EReal) (ix2 q k) := by
  have hi := idx_fixed21 t
  unfold iblk
  rw [View.read_apply]
  show V m c main_v25 _ = _
  rw [entry_w21]
  refine transpose_apply [1, 0] _ transposes_S256x256_S256x256_1_0 _ (ix2 q k) fun b => ?_
  match b with
  | ⟨0, _⟩ => show k.val = win0_21.index t 0 * 256 + 1 * k.val; rw [hi.1]; omega
  | ⟨1, _⟩ => show q.val = win0_21.index t 1 * 256 + 1 * q.val; rw [hi.2]; omega

/-- Weight window 22's block (the whole transposed weight, at every point) at (k, q) is its weight at (q, k). -/
theorem weight_blk22 (c : Dev nD) (t : Fin cfg0.N) (k q : Fin 256) :
    (iblk m c 22 t : Vec Ideal S256x256 .bf16) (ix2 k q) = ((m ((c : Thread nD τ).loc main_arg22)) : S256x256.Idx → EReal) (ix2 q k) := by
  have hi := idx_fixed22 t
  unfold iblk
  rw [View.read_apply]
  show V m c main_v27 _ = _
  rw [entry_w22]
  refine transpose_apply [1, 0] _ transposes_S256x256_S256x256_1_0 _ (ix2 q k) fun b => ?_
  match b with
  | ⟨0, _⟩ => show k.val = win0_22.index t 0 * 256 + 1 * k.val; rw [hi.1]; omega
  | ⟨1, _⟩ => show q.val = win0_22.index t 1 * 256 + 1 * q.val; rw [hi.2]; omega

/-- Bias window 9's block (the bias as one row, at every point) at (0, q) is its bias at q. -/
theorem bias_blk9 (c : Dev nD) (t : Fin cfg0.N) (q : Fin 256) :
    (iblk m c 9 t : Vec Ideal S1x256 .f32) (ix2 (0 : Fin 1) q) = ((m ((c : Thread nD τ).loc main_arg6)) : S256.Idx → EReal) (ix1 q) := by
  have hi := idx_fixed9 t
  unfold iblk
  rw [View.read_apply]
  show V m c main_v28 _ = _
  rw [entry_b9]
  refine (congrArg _ (?_ : _ = ix2 (0 : Fin 1) q)).trans (shapeCast_a_1a_apply _ shapeCasts_S256_S1x256 (0 : Fin 1) q)
  funext a
  apply Fin.ext
  match a with
  | ⟨0, _⟩ => show win0_9.index t 0 * 1 + 1 * 0 = 0; rw [hi.1]
  | ⟨1, _⟩ => show win0_9.index t 1 * 256 + 1 * q.val = q.val; rw [hi.2]; omega

/-- Bias window 10's block (the bias as one row, at every point) at (0, q) is its bias at q. -/
theorem bias_blk10 (c : Dev nD) (t : Fin cfg0.N) (q : Fin 256) :
    (iblk m c 10 t : Vec Ideal S1x256 .f32) (ix2 (0 : Fin 1) q) = ((m ((c : Thread nD τ).loc main_arg12)) : S256.Idx → EReal) (ix1 q) := by
  have hi := idx_fixed10 t
  unfold iblk
  rw [View.read_apply]
  show V m c main_v29 _ = _
  rw [entry_b10]
  refine (congrArg _ (?_ : _ = ix2 (0 : Fin 1) q)).trans (shapeCast_a_1a_apply _ shapeCasts_S256_S1x256 (0 : Fin 1) q)
  funext a
  apply Fin.ext
  match a with
  | ⟨0, _⟩ => show win0_10.index t 0 * 1 + 1 * 0 = 0; rw [hi.1]
  | ⟨1, _⟩ => show win0_10.index t 1 * 256 + 1 * q.val = q.val; rw [hi.2]; omega

/-- Bias window 11's block (the bias as one row, at every point) at (0, q) is its bias at q. -/
theorem bias_blk11 (c : Dev nD) (t : Fin cfg0.N) (q : Fin 256) :
    (iblk m c 11 t : Vec Ideal S1x256 .f32) (ix2 (0 : Fin 1) q) = ((m ((c : Thread nD τ).loc main_arg10)) : S256.Idx → EReal) (ix1 q) := by
  have hi := idx_fixed11 t
  unfold iblk
  rw [View.read_apply]
  show V m c main_v30 _ = _
  rw [entry_b11]
  refine (congrArg _ (?_ : _ = ix2 (0 : Fin 1) q)).trans (shapeCast_a_1a_apply _ shapeCasts_S256_S1x256 (0 : Fin 1) q)
  funext a
  apply Fin.ext
  match a with
  | ⟨0, _⟩ => show win0_11.index t 0 * 1 + 1 * 0 = 0; rw [hi.1]
  | ⟨1, _⟩ => show win0_11.index t 1 * 256 + 1 * q.val = q.val; rw [hi.2]; omega

/-- Bias window 12's block (the bias as one row, at every point) at (0, q) is its bias at q. -/
theorem bias_blk12 (c : Dev nD) (t : Fin cfg0.N) (q : Fin 256) :
    (iblk m c 12 t : Vec Ideal S1x256 .f32) (ix2 (0 : Fin 1) q) = ((m ((c : Thread nD τ).loc main_arg8)) : S256.Idx → EReal) (ix1 q) := by
  have hi := idx_fixed12 t
  unfold iblk
  rw [View.read_apply]
  show V m c main_v31 _ = _
  rw [entry_b12]
  refine (congrArg _ (?_ : _ = ix2 (0 : Fin 1) q)).trans (shapeCast_a_1a_apply _ shapeCasts_S256_S1x256 (0 : Fin 1) q)
  funext a
  apply Fin.ext
  match a with
  | ⟨0, _⟩ => show win0_12.index t 0 * 1 + 1 * 0 = 0; rw [hi.1]
  | ⟨1, _⟩ => show win0_12.index t 1 * 256 + 1 * q.val = q.val; rw [hi.2]; omega

/-! ## The five gates at a point -/

/-- The update gate from point t's blocks, at block entry y, is the update gate of the whole arrays at the array entry i that y
    is: node 2048·t + (y 0), channel (y 1). -/
theorem gate_update (c : Dev nD) (t : Fin cfg0.N) (y : S2048x256.Idx) (i : S131072x256.Idx)
    (h0 : (i 0).val = 2048 * t.val + (y 0).val) (h1 : (i 1).val = (y 1).val) :
    bgate (iblk m c 0 t) (iblk m c 2 t) (iblk m c 4 t) (iblk m c 5 t) (iblk m c 9 t) (iblk m c 13 t) (iblk m c 18 t) (y 0) (y 1)
      = gate ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg5)) : S256x256.Idx → EReal) ((m ((c : Thread nD τ).loc main_arg6)) : S256.Idx → EReal) ((m ((c : Thread nD τ).loc main_arg19)) : S256x256.Idx → EReal) ((m ((c : Thread nD τ).loc main_arg20)) : S256x256.Idx → EReal) (i 0) (i 1) := by
  have hq : i 1 = y 1 := Fin.ext h1
  rw [hq]
  exact bgate_eq_gate (iblk m c 0 t) (iblk m c 2 t) (iblk m c 4 t) (iblk m c 5 t) (iblk m c 9 t) (iblk m c 13 t) (iblk m c 18 t)
    ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg5)) : S256x256.Idx → EReal) ((m ((c : Thread nD τ).loc main_arg6)) : S256.Idx → EReal) ((m ((c : Thread nD τ).loc main_arg19)) : S256x256.Idx → EReal) ((m ((c : Thread nD τ).loc main_arg20)) : S256x256.Idx → EReal) (y 0) (y 1) (i 0)
    (fun k => node_blk0 m c t (ix2 (y 0) k) (ix2 (i 0) k) h0 rfl)
    (fun k => node_blk2 m c t (ix2 (y 0) k) (ix2 (i 0) k) h0 rfl)
    (fun k => node_blk4 m c t (ix2 (y 0) k) (ix2 (i 0) k) h0 rfl)
    (fun k => weight_blk5 m c t k (y 1)) (fun k => weight_blk13 m c t k (y 1)) (fun k => weight_blk18 m c t k (y 1))
    (bias_blk9 m c t (y 1))

/-- The input gate from point t's blocks, at block entry y, is the input gate of the whole arrays at the array entry i that y
    is: node 2048·t + (y 0), channel (y 1). -/
theorem gate_input (c : Dev nD) (t : Fin cfg0.N) (y : S2048x256.Idx) (i : S131072x256.Idx)
    (h0 : (i 0).val = 2048 * t.val + (y 0).val) (h1 : (i 1).val = (y 1).val) :
    bgate (iblk m c 0 t) (iblk m c 2 t) (iblk m c 4 t) (iblk m c 6 t) (iblk m c 10 t) (iblk m c 14 t) (iblk m c 19 t) (y 0) (y 1)
      = gate ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg11)) : S256x256.Idx → EReal) ((m ((c : Thread nD τ).loc main_arg12)) : S256.Idx → EReal) ((m ((c : Thread nD τ).loc main_arg13)) : S256x256.Idx → EReal) ((m ((c : Thread nD τ).loc main_arg14)) : S256x256.Idx → EReal) (i 0) (i 1) := by
  have hq : i 1 = y 1 := Fin.ext h1
  rw [hq]
  exact bgate_eq_gate (iblk m c 0 t) (iblk m c 2 t) (iblk m c 4 t) (iblk m c 6 t) (iblk m c 10 t) (iblk m c 14 t) (iblk m c 19 t)
    ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg11)) : S256x256.Idx → EReal) ((m ((c : Thread nD τ).loc main_arg12)) : S256.Idx → EReal) ((m ((c : Thread nD τ).loc main_arg13)) : S256x256.Idx → EReal) ((m ((c : Thread nD τ).loc main_arg14)) : S256x256.Idx → EReal) (y 0) (y 1) (i 0)
    (fun k => node_blk0 m c t (ix2 (y 0) k) (ix2 (i 0) k) h0 rfl)
    (fun k => node_blk2 m c t (ix2 (y 0) k) (ix2 (i 0) k) h0 rfl)
    (fun k => node_blk4 m c t (ix2 (y 0) k) (ix2 (i 0) k) h0 rfl)
    (fun k => weight_blk6 m c t k (y 1)) (fun k => weight_blk14 m c t k (y 1)) (fun k => weight_blk19 m c t k (y 1))
    (bias_blk10 m c t (y 1))

/-- The forgetL gate from point t's blocks, at block entry y, is the forgetL gate of the whole arrays at the array entry i that y
    is: node 2048·t + (y 0), channel (y 1). -/
theorem gate_forgetL (c : Dev nD) (t : Fin cfg0.N) (y : S2048x256.Idx) (i : S131072x256.Idx)
    (h0 : (i 0).val = 2048 * t.val + (y 0).val) (h1 : (i 1).val = (y 1).val) :
    bgate (iblk m c 0 t) (iblk m c 2 t) (iblk m c 4 t) (iblk m c 7 t) (iblk m c 11 t) (iblk m c 15 t) (iblk m c 20 t) (y 0) (y 1)
      = gate ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg9)) : S256x256.Idx → EReal) ((m ((c : Thread nD τ).loc main_arg10)) : S256.Idx → EReal) ((m ((c : Thread nD τ).loc main_arg15)) : S256x256.Idx → EReal) ((m ((c : Thread nD τ).loc main_arg16)) : S256x256.Idx → EReal) (i 0) (i 1) := by
  have hq : i 1 = y 1 := Fin.ext h1
  rw [hq]
  exact bgate_eq_gate (iblk m c 0 t) (iblk m c 2 t) (iblk m c 4 t) (iblk m c 7 t) (iblk m c 11 t) (iblk m c 15 t) (iblk m c 20 t)
    ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg9)) : S256x256.Idx → EReal) ((m ((c : Thread nD τ).loc main_arg10)) : S256.Idx → EReal) ((m ((c : Thread nD τ).loc main_arg15)) : S256x256.Idx → EReal) ((m ((c : Thread nD τ).loc main_arg16)) : S256x256.Idx → EReal) (y 0) (y 1) (i 0)
    (fun k => node_blk0 m c t (ix2 (y 0) k) (ix2 (i 0) k) h0 rfl)
    (fun k => node_blk2 m c t (ix2 (y 0) k) (ix2 (i 0) k) h0 rfl)
    (fun k => node_blk4 m c t (ix2 (y 0) k) (ix2 (i 0) k) h0 rfl)
    (fun k => weight_blk7 m c t k (y 1)) (fun k => weight_blk15 m c t k (y 1)) (fun k => weight_blk20 m c t k (y 1))
    (bias_blk11 m c t (y 1))

/-- The forgetR gate from point t's blocks, at block entry y, is the forgetR gate of the whole arrays at the array entry i that y
    is: node 2048·t + (y 0), channel (y 1). -/
theorem gate_forgetR (c : Dev nD) (t : Fin cfg0.N) (y : S2048x256.Idx) (i : S131072x256.Idx)
    (h0 : (i 0).val = 2048 * t.val + (y 0).val) (h1 : (i 1).val = (y 1).val) :
    bgate (iblk m c 0 t) (iblk m c 2 t) (iblk m c 4 t) (iblk m c 7 t) (iblk m c 11 t) (iblk m c 16 t) (iblk m c 21 t) (y 0) (y 1)
      = gate ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg9)) : S256x256.Idx → EReal) ((m ((c : Thread nD τ).loc main_arg10)) : S256.Idx → EReal) ((m ((c : Thread nD τ).loc main_arg17)) : S256x256.Idx → EReal) ((m ((c : Thread nD τ).loc main_arg18)) : S256x256.Idx → EReal) (i 0) (i 1) := by
  have hq : i 1 = y 1 := Fin.ext h1
  rw [hq]
  exact bgate_eq_gate (iblk m c 0 t) (iblk m c 2 t) (iblk m c 4 t) (iblk m c 7 t) (iblk m c 11 t) (iblk m c 16 t) (iblk m c 21 t)
    ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg9)) : S256x256.Idx → EReal) ((m ((c : Thread nD τ).loc main_arg10)) : S256.Idx → EReal) ((m ((c : Thread nD τ).loc main_arg17)) : S256x256.Idx → EReal) ((m ((c : Thread nD τ).loc main_arg18)) : S256x256.Idx → EReal) (y 0) (y 1) (i 0)
    (fun k => node_blk0 m c t (ix2 (y 0) k) (ix2 (i 0) k) h0 rfl)
    (fun k => node_blk2 m c t (ix2 (y 0) k) (ix2 (i 0) k) h0 rfl)
    (fun k => node_blk4 m c t (ix2 (y 0) k) (ix2 (i 0) k) h0 rfl)
    (fun k => weight_blk7 m c t k (y 1)) (fun k => weight_blk16 m c t k (y 1)) (fun k => weight_blk21 m c t k (y 1))
    (bias_blk11 m c t (y 1))

/-- The output gate from point t's blocks, at block entry y, is the output gate of the whole arrays at the array entry i that y
    is: node 2048·t + (y 0), channel (y 1). -/
theorem gate_output (c : Dev nD) (t : Fin cfg0.N) (y : S2048x256.Idx) (i : S131072x256.Idx)
    (h0 : (i 0).val = 2048 * t.val + (y 0).val) (h1 : (i 1).val = (y 1).val) :
    bgate (iblk m c 0 t) (iblk m c 2 t) (iblk m c 4 t) (iblk m c 8 t) (iblk m c 12 t) (iblk m c 17 t) (iblk m c 22 t) (y 0) (y 1)
      = gate ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg7)) : S256x256.Idx → EReal) ((m ((c : Thread nD τ).loc main_arg8)) : S256.Idx → EReal) ((m ((c : Thread nD τ).loc main_arg21)) : S256x256.Idx → EReal) ((m ((c : Thread nD τ).loc main_arg22)) : S256x256.Idx → EReal) (i 0) (i 1) := by
  have hq : i 1 = y 1 := Fin.ext h1
  rw [hq]
  exact bgate_eq_gate (iblk m c 0 t) (iblk m c 2 t) (iblk m c 4 t) (iblk m c 8 t) (iblk m c 12 t) (iblk m c 17 t) (iblk m c 22 t)
    ((m ((c : Thread nD τ).loc main_arg0)) : S131072x256.Idx → EReal) ((m ((c : Thread nD τ).loc main_arg2)) : S131072x256.Idx → EReal) ((m ((c : Thread nD τ).loc main_arg4)) : S131072x256.Idx → EReal) ((m ((c : Thread nD τ).loc main_arg7)) : S256x256.Idx → EReal) ((m ((c : Thread nD τ).loc main_arg8)) : S256.Idx → EReal) ((m ((c : Thread nD τ).loc main_arg21)) : S256x256.Idx → EReal) ((m ((c : Thread nD τ).loc main_arg22)) : S256x256.Idx → EReal) (y 0) (y 1) (i 0)
    (fun k => node_blk0 m c t (ix2 (y 0) k) (ix2 (i 0) k) h0 rfl)
    (fun k => node_blk2 m c t (ix2 (y 0) k) (ix2 (i 0) k) h0 rfl)
    (fun k => node_blk4 m c t (ix2 (y 0) k) (ix2 (i 0) k) h0 rfl)
    (fun k => weight_blk8 m c t k (y 1)) (fun k => weight_blk17 m c t k (y 1)) (fun k => weight_blk22 m c t k (y 1))
    (bias_blk12 m c t (y 1))

/-! ## The result arrays -/

/-- The new memory of the argument arrays as device c holds them. -/
abbrev outC (c : Dev nD) : S131072x256.Idx → EReal := newC ((m ((c : Thread nD τ).loc main_arg0)) : S131072x256.Idx → EReal) ((m ((c : Thread nD τ).loc main_arg1)) : S131072x256.Idx → EReal) ((m ((c : Thread nD τ).loc main_arg2)) : S131072x256.Idx → EReal) ((m ((c : Thread nD τ).loc main_arg3)) : S131072x256.Idx → EReal) ((m ((c : Thread nD τ).loc main_arg4)) : S131072x256.Idx → EReal) ((m ((c : Thread nD τ).loc main_arg5)) : S256x256.Idx → EReal) ((m ((c : Thread nD τ).loc main_arg6)) : S256.Idx → EReal) ((m ((c : Thread nD τ).loc main_arg7)) : S256x256.Idx → EReal) ((m ((c : Thread nD τ).loc main_arg8)) : S256.Idx → EReal) ((m ((c : Thread nD τ).loc main_arg9)) : S256x256.Idx → EReal) ((m ((c : Thread nD τ).loc main_arg10)) : S256.Idx → EReal) ((m ((c : Thread nD τ).loc main_arg11)) : S256x256.Idx → EReal) ((m ((c : Thread nD τ).loc main_arg12)) : S256.Idx → EReal) ((m ((c : Thread nD τ).loc main_arg13)) : S256x256.Idx → EReal) ((m ((c : Thread nD τ).loc main_arg14)) : S256x256.Idx → EReal) ((m ((c : Thread nD τ).loc main_arg15)) : S256x256.Idx → EReal) ((m ((c : Thread nD τ).loc main_arg16)) : S256x256.Idx → EReal) ((m ((c : Thread nD τ).loc main_arg17)) : S256x256.Idx → EReal) ((m ((c : Thread nD τ).loc main_arg18)) : S256x256.Idx → EReal) ((m ((c : Thread nD τ).loc main_arg19)) : S256x256.Idx → EReal) ((m ((c : Thread nD τ).loc main_arg20)) : S256x256.Idx → EReal)

/-- The new hidden state of the argument arrays as device c holds them. -/
abbrev outH (c : Dev nD) : S131072x256.Idx → EReal := newH ((m ((c : Thread nD τ).loc main_arg0)) : S131072x256.Idx → EReal) ((m ((c : Thread nD τ).loc main_arg1)) : S131072x256.Idx → EReal) ((m ((c : Thread nD τ).loc main_arg2)) : S131072x256.Idx → EReal) ((m ((c : Thread nD τ).loc main_arg3)) : S131072x256.Idx → EReal) ((m ((c : Thread nD τ).loc main_arg4)) : S131072x256.Idx → EReal) ((m ((c : Thread nD τ).loc main_arg5)) : S256x256.Idx → EReal) ((m ((c : Thread nD τ).loc main_arg6)) : S256.Idx → EReal) ((m ((c : Thread nD τ).loc main_arg7)) : S256x256.Idx → EReal) ((m ((c : Thread nD τ).loc main_arg8)) : S256.Idx → EReal) ((m ((c : Thread nD τ).loc main_arg9)) : S256x256.Idx → EReal) ((m ((c : Thread nD τ).loc main_arg10)) : S256.Idx → EReal) ((m ((c : Thread nD τ).loc main_arg11)) : S256x256.Idx → EReal) ((m ((c : Thread nD τ).loc main_arg12)) : S256.Idx → EReal) ((m ((c : Thread nD τ).loc main_arg13)) : S256x256.Idx → EReal) ((m ((c : Thread nD τ).loc main_arg14)) : S256x256.Idx → EReal) ((m ((c : Thread nD τ).loc main_arg15)) : S256x256.Idx → EReal) ((m ((c : Thread nD τ).loc main_arg16)) : S256x256.Idx → EReal) ((m ((c : Thread nD τ).loc main_arg17)) : S256x256.Idx → EReal) ((m ((c : Thread nD τ).loc main_arg18)) : S256x256.Idx → EReal) ((m ((c : Thread nD τ).loc main_arg19)) : S256x256.Idx → EReal) ((m ((c : Thread nD τ).loc main_arg20)) : S256x256.Idx → EReal) ((m ((c : Thread nD τ).loc main_arg21)) : S256x256.Idx → EReal) ((m ((c : Thread nD τ).loc main_arg22)) : S256x256.Idx → EReal)

/-- WHAT POINT t WRITES BACK to the memory array is its block of `outC`. -/
theorem flushed_c (c : Dev nD) (t : Fin cfg0.N) :
    (dats m 0 c).flushed 23 t = ((cfg0.win 23).blk t).view.read (Elt Ideal) (outC m c) := by
  show (cfg0.win 23).cut (grid0.coords t) ((dats m 0 c).after 23 t) = _
  rw [after0_23]
  unfold out0_23
  rw [View.canon_unit_zero hz]
  simp only [View.ld_unit_zero (S := S2048x256) hz, View.ld_unit_zero (S := S256x256) hz, View.ld_unit_zero (S := S1x256) hz]
  funext y
  have hy := idx_node23 t
  have e0 : ((((cfg0.win 23).blk t).view.emb y) 0).val = 2048 * t.val + (y 0).val := by
    show win0_23.index t 0 * 2048 + 1 * (y 0).val = _; rw [hy.1]; omega
  have e1 : ((((cfg0.win 23).blk t).view.emb y) 1).val = (y 1).val := by
    show win0_23.index t 1 * 256 + 1 * (y 1).val = _; rw [hy.2]; omega
  refine (cell_c_at (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 13 t) (iblk m c 14 t) (iblk m c 15 t) (iblk m c 16 t) (iblk m c 18 t) (iblk m c 19 t) (iblk m c 20 t) (iblk m c 21 t) y).trans ?_
  rw [gate_update m c t y (((cfg0.win 23).blk t).view.emb y) e0 e1, gate_input m c t y (((cfg0.win 23).blk t).view.emb y) e0 e1, gate_forgetL m c t y (((cfg0.win 23).blk t).view.emb y) e0 e1, gate_forgetR m c t y (((cfg0.win 23).blk t).view.emb y) e0 e1,
    node_blk1 m c t y (((cfg0.win 23).blk t).view.emb y) e0 e1, node_blk3 m c t y (((cfg0.win 23).blk t).view.emb y) e0 e1]
  rfl

/-- WHAT POINT t WRITES BACK to the hidden-state array is its block of `outH`. -/
theorem flushed_h (c : Dev nD) (t : Fin cfg0.N) :
    (dats m 0 c).flushed 24 t = ((cfg0.win 24).blk t).view.read (Elt Ideal) (outH m c) := by
  show (cfg0.win 24).cut (grid0.coords t) ((dats m 0 c).after 24 t) = _
  rw [after0_24]
  unfold out0_24
  rw [View.canon_unit_zero hz]
  simp only [View.ld_unit_zero (S := S2048x256) hz, View.ld_unit_zero (S := S256x256) hz, View.ld_unit_zero (S := S1x256) hz]
  funext y
  have hy := idx_node24 t
  have e0 : ((((cfg0.win 24).blk t).view.emb y) 0).val = 2048 * t.val + (y 0).val := by
    show win0_24.index t 0 * 2048 + 1 * (y 0).val = _; rw [hy.1]; omega
  have e1 : ((((cfg0.win 24).blk t).view.emb y) 1).val = (y 1).val := by
    show win0_24.index t 1 * 256 + 1 * (y 1).val = _; rw [hy.2]; omega
  refine (cell_h_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) y).trans ?_
  rw [gate_output m c t y (((cfg0.win 24).blk t).view.emb y) e0 e1, gate_update m c t y (((cfg0.win 24).blk t).view.emb y) e0 e1, gate_input m c t y (((cfg0.win 24).blk t).view.emb y) e0 e1, gate_forgetL m c t y (((cfg0.win 24).blk t).view.emb y) e0 e1, gate_forgetR m c t y (((cfg0.win 24).blk t).view.emb y) e0 e1,
    node_blk1 m c t y (((cfg0.win 24).blk t).view.emb y) e0 e1, node_blk3 m c t y (((cfg0.win 24).blk t).view.emb y) e0 e1]
  rfl

/-- An array entry lies in point t's block of output window 23 iff each coordinate is in the block's range on its axis. -/
theorem mem_blk23 (t : Fin cfg0.N) (i : S131072x256.Idx) :
    i ∈ ((cfg0.win 23).blk t).view.set ↔ ∀ a : Fin 2, win0_23.index t a * S2048x256.size a ≤ (i a).val
      ∧ (i a).val < win0_23.index t a * S2048x256.size a + S2048x256.size a := by
  show i ∈ ((View.whole main_v32_0).slice (win0_23.rect t)).set ↔ _
  rw [View.set_slice_whole, Rect.mem_set_unit]
  exact Iff.rfl

/-- Every entry of the array is in some point's block: node n is in the block of point n / 2048. -/
theorem cover23 (i : S131072x256.Idx) : ∃ t : Fin cfg0.N, (cfg0.win 23).flush t = true ∧ i ∈ ((cfg0.win 23).blk t).view.set := by
  have hi0 : (i 0).val < 131072 := (i 0).isLt
  have hi1 : (i 1).val < 256 := (i 1).isLt
  have hN : cfg0.N = 64 := N_0
  have ht : (i 0).val / 2048 < cfg0.N := by rw [hN]; omega
  refine ⟨⟨(i 0).val / 2048, ht⟩, flush0_23 _, ?_⟩
  rw [mem_blk23]
  have hx := idx_node23 ⟨(i 0).val / 2048, ht⟩
  intro a
  match a with
  | ⟨0, _⟩ =>
    show win0_23.index ⟨(i 0).val / 2048, ht⟩ 0 * 2048 ≤ (i 0).val ∧ (i 0).val < win0_23.index ⟨(i 0).val / 2048, ht⟩ 0 * 2048 + 2048
    rw [hx.1]; show (i 0).val / 2048 * 2048 ≤ (i 0).val ∧ (i 0).val < (i 0).val / 2048 * 2048 + 2048; omega
  | ⟨1, _⟩ =>
    show win0_23.index ⟨(i 0).val / 2048, ht⟩ 1 * 256 ≤ (i 1).val ∧ (i 1).val < win0_23.index ⟨(i 0).val / 2048, ht⟩ 1 * 256 + 256
    rw [hx.2]; omega

/-- An array entry lies in point t's block of output window 24 iff each coordinate is in the block's range on its axis. -/
theorem mem_blk24 (t : Fin cfg0.N) (i : S131072x256.Idx) :
    i ∈ ((cfg0.win 24).blk t).view.set ↔ ∀ a : Fin 2, win0_24.index t a * S2048x256.size a ≤ (i a).val
      ∧ (i a).val < win0_24.index t a * S2048x256.size a + S2048x256.size a := by
  show i ∈ ((View.whole main_v32_1).slice (win0_24.rect t)).set ↔ _
  rw [View.set_slice_whole, Rect.mem_set_unit]
  exact Iff.rfl

/-- Every entry of the array is in some point's block: node n is in the block of point n / 2048. -/
theorem cover24 (i : S131072x256.Idx) : ∃ t : Fin cfg0.N, (cfg0.win 24).flush t = true ∧ i ∈ ((cfg0.win 24).blk t).view.set := by
  have hi0 : (i 0).val < 131072 := (i 0).isLt
  have hi1 : (i 1).val < 256 := (i 1).isLt
  have hN : cfg0.N = 64 := N_0
  have ht : (i 0).val / 2048 < cfg0.N := by rw [hN]; omega
  refine ⟨⟨(i 0).val / 2048, ht⟩, flush0_24 _, ?_⟩
  rw [mem_blk24]
  have hx := idx_node24 ⟨(i 0).val / 2048, ht⟩
  intro a
  match a with
  | ⟨0, _⟩ =>
    show win0_24.index ⟨(i 0).val / 2048, ht⟩ 0 * 2048 ≤ (i 0).val ∧ (i 0).val < win0_24.index ⟨(i 0).val / 2048, ht⟩ 0 * 2048 + 2048
    rw [hx.1]; show (i 0).val / 2048 * 2048 ≤ (i 0).val ∧ (i 0).val < (i 0).val / 2048 * 2048 + 2048; omega
  | ⟨1, _⟩ =>
    show win0_24.index ⟨(i 0).val / 2048, ht⟩ 1 * 256 ≤ (i 1).val ∧ (i 1).val < win0_24.index ⟨(i 0).val / 2048, ht⟩ 1 * 256 + 256
    rw [hx.2]; omega

/-- After the run the memory array is `outC`. -/
theorem final_c (c : Dev nD) : (dats m 0 c).arrAt 23 cfg0.N = outC m c :=
  (dats m 0 c).arrAt_eq_of_cover 23 (outC m c) (fun t _ => flushed_c m c t) cover23

/-- After the run the hidden-state array is `outH`. -/
theorem final_h (c : Dev nD) : (dats m 0 c).arrAt 24 cfg0.N = outH m c :=
  (dats m 0 c).arrAt_eq_of_cover 24 (outH m c) (fun t _ => flushed_h m c t) cover24

/-- THE KERNEL'S RUN, READ: every weakly fair execution ends with the two result arrays at the cell's new memory and new
    hidden state of the argument arrays, and the arguments unchanged. -/
theorem run : θ_run defs (onTc (τ := τ) (main (F := Ideal))) ⟨m, fun _ => 0, ρ⟩ fun r => ∀ c : Dev nD,
      r.2.mem ((c : Thread nD τ).loc main_v32_0) = outC m c
      ∧ r.2.mem ((c : Thread nD τ).loc main_v32_1) = outH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final_c m c), (h c).2.1.trans (final_h m c), (h c).2.2⟩)
    (Cert.KernelIdeal.Value.run_blocks m ρ)

end Cert.TreeCell.Kernel

end
-- ==== Proof.lean ====
/-
  A fused kernel for the binary tree-LSTM cell against its reference, on the extended reals.

  For each of 131072 nodes and 256 channels the cell has five gates — update, input, left forget, right forget,
  output — each with the pre-activation

      ((Σ_k x(n,k)·W(j,k) + b(j)) + Σ_k lh(n,k)·Ul(j,k)) + Σ_k rh(n,k)·Ur(j,k)

  of its own weights (the two forget gates share W and b), and it returns the new memory
  c = (σ(input)·tanh(update) + σ(left forget)·lc) + σ(right forget)·rc and the new hidden state h = σ(output)·tanh c
  (Proof/CellSpec.lean: `newC`, `newH`).

  The kernel walks the nodes in 64 blocks of 2048; at each block it multiplies the block's input and hidden rows by each
  gate's weight — transposed beforehand, and narrowed to a shorter float format, which on the extended reals changes
  nothing — adds the bias row, and combines the gates (Proof/KernelBlock.lean: what one block's body computes, entry by
  entry; Proof/KernelArray.lean: a block entry is an argument entry, the 64 blocks tile the result arrays, so the two
  results are `newC` and `newH` of the arguments).  The reference stacks the gates' weights into three tall matrices,
  takes three products and slices them gate by gate, and spells the logistic function as 1 / (1 + e^(−z))
  (Proof/StackedRows.lean: a row of a stack is a row of one gate's weight; Proof/RefCell.lean: its two results are
  `newC` and `newH` of the arguments).  Both sides add the same terms in the same grouping, so they agree at every
  extended real: the finiteness of the inputs is not used, and no constant needs a reading other than its own.

  Nothing was rewritten when the kernel was idealized, so that it is the kernel's idealization holds trivially; the three
  programs' runs terminate with their arguments unchanged by the runs read below.
-/
import proofs.«167922_j65017214926868_2_alg».proof.Defs
import proofs.«167922_j65017214926868_2_alg».proof.Proof.Gen.Kernel
import proofs.«167922_j65017214926868_2_alg».proof.Proof.Gen.Kernel.Skeleton
import proofs.«167922_j65017214926868_2_alg».proof.Proof.Gen.Kernel.Launch
import proofs.«167922_j65017214926868_2_alg».proof.Proof.Gen.Kernel.Points
import proofs.«167922_j65017214926868_2_alg».proof.Proof.Gen.Kernel.Frame
import proofs.«167922_j65017214926868_2_alg».proof.Proof.Gen.KernelIdeal
import proofs.«167922_j65017214926868_2_alg».proof.Proof.Gen.KernelIdeal.Skeleton
import proofs.«167922_j65017214926868_2_alg».proof.Proof.Gen.KernelIdeal.Launch
import proofs.«167922_j65017214926868_2_alg».proof.Proof.Gen.KernelIdeal.Points
import proofs.«167922_j65017214926868_2_alg».proof.Proof.Gen.KernelIdeal.Frame
import proofs.«167922_j65017214926868_2_alg».proof.Proof.Gen.ReferenceIdeal
import proofs.«167922_j65017214926868_2_alg».proof.Proof.Gen.Pre_finite_inputs
import proofs.«167922_j65017214926868_2_alg».proof.Proof.Gen.KernelIdeal.Value
import proofs.«167922_j65017214926868_2_alg».proof.Proof.Gen.ReferenceIdeal.Run
import proofs.«167922_j65017214926868_2_alg».proof.Proof.Gen.ReferenceIdeal.Read
import proofs.«167922_j65017214926868_2_alg».proof.Proof.RefCell
import proofs.«167922_j65017214926868_2_alg».proof.Proof.KernelArray
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten to read it on the extended reals. -/
theorem preserves : Cert.preserves_Kernel_KernelIdeal := trivial

/-- The new memory of equal argument arrays is equal. -/
theorem newC_of_eq {a0 b0 : Cert.TreeCell.Nodes.Idx → EReal} {a1 b1 : Cert.TreeCell.Nodes.Idx → EReal} {a2 b2 : Cert.TreeCell.Nodes.Idx → EReal} {a3 b3 : Cert.TreeCell.Nodes.Idx → EReal} {a4 b4 : Cert.TreeCell.Nodes.Idx → EReal} {a5 b5 : Cert.TreeCell.Weight.Idx → EReal} {a6 b6 : Cert.TreeCell.Bias.Idx → EReal} {a7 b7 : Cert.TreeCell.Weight.Idx → EReal} {a8 b8 : Cert.TreeCell.Bias.Idx → EReal} {a9 b9 : Cert.TreeCell.Weight.Idx → EReal} {a10 b10 : Cert.TreeCell.Bias.Idx → EReal} {a11 b11 : Cert.TreeCell.Weight.Idx → EReal} {a12 b12 : Cert.TreeCell.Bias.Idx → EReal} {a13 b13 : Cert.TreeCell.Weight.Idx → EReal} {a14 b14 : Cert.TreeCell.Weight.Idx → EReal} {a15 b15 : Cert.TreeCell.Weight.Idx → EReal} {a16 b16 : Cert.TreeCell.Weight.Idx → EReal} {a17 b17 : Cert.TreeCell.Weight.Idx → EReal} {a18 b18 : Cert.TreeCell.Weight.Idx → EReal} {a19 b19 : Cert.TreeCell.Weight.Idx → EReal} {a20 b20 : Cert.TreeCell.Weight.Idx → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    Cert.TreeCell.newC a0 a1 a2 a3 a4 a5 a6 a7 a8 a9 a10 a11 a12 a13 a14 a15 a16 a17 a18 a19 a20 = Cert.TreeCell.newC b0 b1 b2 b3 b4 b5 b6 b7 b8 b9 b10 b11 b12 b13 b14 b15 b16 b17 b18 b19 b20 := by
  subst_vars; rfl

/-- The new hidden state of equal argument arrays is equal. -/
theorem newH_of_eq {a0 b0 : Cert.TreeCell.Nodes.Idx → EReal} {a1 b1 : Cert.TreeCell.Nodes.Idx → EReal} {a2 b2 : Cert.TreeCell.Nodes.Idx → EReal} {a3 b3 : Cert.TreeCell.Nodes.Idx → EReal} {a4 b4 : Cert.TreeCell.Nodes.Idx → EReal} {a5 b5 : Cert.TreeCell.Weight.Idx → EReal} {a6 b6 : Cert.TreeCell.Bias.Idx → EReal} {a7 b7 : Cert.TreeCell.Weight.Idx → EReal} {a8 b8 : Cert.TreeCell.Bias.Idx → EReal} {a9 b9 : Cert.TreeCell.Weight.Idx → EReal} {a10 b10 : Cert.TreeCell.Bias.Idx → EReal} {a11 b11 : Cert.TreeCell.Weight.Idx → EReal} {a12 b12 : Cert.TreeCell.Bias.Idx → EReal} {a13 b13 : Cert.TreeCell.Weight.Idx → EReal} {a14 b14 : Cert.TreeCell.Weight.Idx → EReal} {a15 b15 : Cert.TreeCell.Weight.Idx → EReal} {a16 b16 : Cert.TreeCell.Weight.Idx → EReal} {a17 b17 : Cert.TreeCell.Weight.Idx → EReal} {a18 b18 : Cert.TreeCell.Weight.Idx → EReal} {a19 b19 : Cert.TreeCell.Weight.Idx → EReal} {a20 b20 : Cert.TreeCell.Weight.Idx → EReal} {a21 b21 : Cert.TreeCell.Weight.Idx → EReal} {a22 b22 : Cert.TreeCell.Weight.Idx → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) :
    Cert.TreeCell.newH a0 a1 a2 a3 a4 a5 a6 a7 a8 a9 a10 a11 a12 a13 a14 a15 a16 a17 a18 a19 a20 a21 a22 = Cert.TreeCell.newH b0 b1 b2 b3 b4 b5 b6 b7 b8 b9 b10 b11 b12 b13 b14 b15 b16 b17 b18 b19 b20 b21 b22 := by
  subst_vars; rfl

/-- From memories that agree on the 23 arguments the kernel ends with its two result arrays at `newC` and `newH` of the
    arguments and the reference ends with its two results at the same two functions of the same arguments. -/
theorem algebraic : Cert.algebraic_KernelIdeal_ReferenceIdeal := by
  intro m ρ m' ρ' _ hagree
  refine ⟨_, _, Cert.TreeCell.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18, e19, e20, e21, e22⟩ := hagree c
    rw [Cert.ReferenceIdeal.Read.val_main_v58_eq, Cert.TreeCell.Ref.result_c]
    exact newC_of_eq e0 e1 e2 e3 e4 e5 e6 e7 e8 e9 e10 e11 e12 e13 e14 e15 e16 e17 e18 e19 e20
  · obtain ⟨e0, e1, e2, e3, e4, e5, e6, e7, e8, e9, e10, e11, e12, e13, e14, e15, e16, e17, e18, e19, e20, e21, e22⟩ := hagree c
    rw [Cert.ReferenceIdeal.Read.val_main_v68_eq, Cert.TreeCell.Ref.result_h]
    exact newH_of_eq e0 e1 e2 e3 e4 e5 e6 e7 e8 e9 e10 e11 e12 e13 e14 e15 e16 e17 e18 e19 e20 e21 e22

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
